-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v28_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S100000x64 : Shape := ⟨2, ![100000, 64]⟩
abbrev S1600000 : Shape := ⟨1, ![1600000]⟩
abbrev S162x128 : Shape := ⟨2, ![162, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S1600000 : S_.BroadcastsInDim S1600000 (![] : Fin 0 → Fin S1600000.rank)
  reducesTo_S1600000_S_d0 : S1600000.ReducesTo [0] S_
  bcast_S_S162x128 : S_.BroadcastsInDim S162x128 (![] : Fin 0 → Fin S162x128.rank)
  reducesTo_S162x128_S_d0_1 : S162x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_v13 : IVec S_ 1) (main_v16 : IVec S162x128 1) : IVec S_ 1 :=
  let main_c_5 : IVec S_ 1 := constantI S_ 1 1#1
  let main_v17 : IVec S_ 1 := (fun x v => Host.reduce IntOp.andi x v reducesTo_S162x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x16 .f32) (main_arg1 : FVec F S100000x64 .f32) (main_arg2 : FVec F S1600000 .f32) (main_arg3 : IVec S1600000 32) (main_arg4 : IVec S1600000 32) (main_arg5 : FVec F S162x128 .f32) (main_arg6 : FVec F S128 .f32) (main_arg7 : FVec F S128x128 .f32) (main_arg8 : FVec F S128 .f32) (main_arg9 : FVec F S128x64 .f32) (main_arg10 : FVec F S64 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S162x128 .f32 := Host.absf main_arg5
  let main_cst_4 : FVec F S_ .f32 := constant S_ .f32 0x7F800000#32
  let main_v15 : FVec F S162x128 .f32 := broadcastInDim S162x128 ![] bcast_S_S162x128 main_cst_4
  let main_v16 : IVec S162x128 1 := cmpf .olt main_v14 main_v15
  fn_part1 (F := F) main_arg6 main_arg7 main_arg8 main_arg9 main_arg10 main_v13 main_v16
-- ==== Kernel.lean ====
abbrev S100000x16 : Shape := ⟨2, ![100000, 16]⟩
abbrev S100000x64 : Shape := ⟨2, ![100000, 64]⟩
abbrev S1600000 : Shape := ⟨1, ![1600000]⟩
abbrev S162x128 : Shape := ⟨2, ![162, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x80 : Shape := ⟨2, ![1, 80]⟩
abbrev S100000x80 : Shape := ⟨2, ![100000, 80]⟩
abbrev S_ : Shape := ⟨0, ![]⟩
abbrev S1600000x1 : Shape := ⟨2, ![1600000, 1]⟩
abbrev S1600000x80 : Shape := ⟨2, ![1600000, 80]⟩
abbrev S1600000x64 : Shape := ⟨2, ![1600000, 64]⟩
abbrev S80x128 : Shape := ⟨2, ![80, 128]⟩
abbrev S1x128 : Shape := ⟨2, ![1, 128]⟩
abbrev S1x64 : Shape := ⟨2, ![1, 64]⟩
abbrev S4000x80 : Shape := ⟨2, ![4000, 80]⟩
abbrev S4000x1 : Shape := ⟨2, ![4000, 1]⟩
abbrev S4000x64 : Shape := ⟨2, ![4000, 64]⟩
abbrev S4000 : Shape := ⟨1, ![4000]⟩
abbrev S4000x128 : Shape := ⟨2, ![4000, 128]⟩

abbrev nBuf : Space → Nat
  | .hbm => 46
  | .vmem => 20
  | .smem => 0
  | _ => 0

abbrev bufTy : (tb : Table) → Fin (tcTables nBuf tb) → BufTy
  | .hbm, ⟨0, _⟩ => ⟨S100000x16, .f32⟩
  | .hbm, ⟨1, _⟩ => ⟨S100000x64, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S162x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x80, .f32⟩
  | .hbm, ⟨12, _⟩ => ⟨S100000x80, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x80, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x80, .f32⟩
  | .hbm, ⟨31, _⟩ => ⟨S1600000x64, .f32⟩
  | .hbm, ⟨32, _⟩ => ⟨S1600000x1, .f32⟩
  | .hbm, ⟨33, _⟩ => ⟨S80x128, .f32⟩
  | .hbm, ⟨34, _⟩ => ⟨S80x128, .bf16⟩
  | .hbm, ⟨35, _⟩ => ⟨S80x128, .f32⟩
  | .hbm, ⟨36, _⟩ => ⟨S80x128, .bf16⟩
  | .hbm, ⟨37, _⟩ => ⟨S1x128, .f32⟩
  | .hbm, ⟨38, _⟩ => ⟨S1x128, .f32⟩
  | .hbm, ⟨39, _⟩ => ⟨S128x128, .bf16⟩
  | .hbm, ⟨40, _⟩ => ⟨S128x64, .bf16⟩
  | .hbm, ⟨41, _⟩ => ⟨S1x128, .f32⟩
  | .hbm, ⟨42, _⟩ => ⟨S1x128, .f32⟩
  | .hbm, ⟨43, _⟩ => ⟨S1x64, .f32⟩
  | .hbm, ⟨44, _⟩ => ⟨S1600000x1, .f32⟩
  | .hbm, ⟨45, _⟩ => ⟨S1600000x64, .f32⟩
  | .local _ .vmem, ⟨0, _⟩ => ⟨S4000x80, .f32⟩
  | .local _ .vmem, ⟨1, _⟩ => ⟨S4000x80, .f32⟩
  | .local _ .vmem, ⟨2, _⟩ => ⟨S4000x80, .f32⟩
  | .local _ .vmem, ⟨3, _⟩ => ⟨S4000x80, .f32⟩
  | .local _ .vmem, ⟨4, _⟩ => ⟨S4000x1, .f32⟩
  | .local _ .vmem, ⟨5, _⟩ => ⟨S4000x1, .f32⟩
  | .local _ .vmem, ⟨6, _⟩ => ⟨S1x80, .f32⟩
  | .local _ .vmem, ⟨7, _⟩ => ⟨S80x128, .bf16⟩
  | .local _ .vmem, ⟨8, _⟩ => ⟨S80x128, .bf16⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S128x128, .bf16⟩
  | .local _ .vmem, ⟨13, _⟩ => ⟨S1x128, .f32⟩
  | .local _ .vmem, ⟨14, _⟩ => ⟨S128x64, .bf16⟩
  | .local _ .vmem, ⟨15, _⟩ => ⟨S1x64, .f32⟩
  | .local _ .vmem, ⟨16, _⟩ => ⟨S4000x1, .f32⟩
  | .local _ .vmem, ⟨17, _⟩ => ⟨S4000x1, .f32⟩
  | .local _ .vmem, ⟨18, _⟩ => ⟨S4000x64, .f32⟩
  | .local _ .vmem, ⟨19, _⟩ => ⟨S4000x64, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28_0 : Ref sig .tc := ⟨.hbm, 44, rfl⟩
abbrev main_v28_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S80x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S80x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4000x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4000x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  concatenates_S100000x16_S100000x64_S100000x80_d1 : Shape.Concatenates [S100000x16, S100000x64] S100000x80 1
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S1600000x80_S1600000x64_0_16 : S1600000x80.Slices ![0, 16] S1600000x64
  slices_S162x128_S80x128_0_0 : S162x128.Slices ![0, 0] S80x128
  bitsLt_bf16_f32 : FTy.bits .bf16 < FTy.bits .f32
  slices_S162x128_S80x128_80_0 : S162x128.Slices ![80, 0] S80x128
  slices_S162x128_S1x128_160_0 : S162x128.Slices ![160, 0] S1x128
  slices_S162x128_S1x128_161_0 : S162x128.Slices ![161, 0] S1x128
  shapeCasts_S128_S1x128 : S128.ShapeCasts S1x128
  shapeCasts_S64_S1x64 : S64.ShapeCasts S1x64
  inb_S4000x80_S4000x80_0_0 : ∀ a, (![0, 0] : Fin 2 → Nat) a + S4000x80.size a ≤ S4000x80.size a
  h_S4000x80 : 0 < S4000x80.numel
  shapeCasts_S4000x80_S4000x80 : S4000x80.ShapeCasts S4000x80
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S1x80_S1x80_0_0 : ∀ a, (![0, 0] : Fin 2 → Nat) a + S1x80.size a ≤ S1x80.size a
  h_S1x80 : 0 < S1x80.numel
  broadcasts_S1x80_S4000x80 : S1x80.Broadcasts S4000x80
  reduces_S4000x80_S4000 : S4000x80.Reduces [1] S4000
  shapeCasts_S4000_S4000x1 : S4000.ShapeCasts S4000x1
  inb_S80x128_S80x128_0_0 : ∀ a, (![0, 0] : Fin 2 → Nat) a + S80x128.size a ≤ S80x128.size a
  h_S80x128 : 0 < S80x128.numel
  shapeCasts_S80x128_S80x128 : S80x128.ShapeCasts S80x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  gather_S100000x80_S1600000x1_S1600000x80_1_0_n_n_0_1_180_wf : GatherDims.WF S100000x80 S1600000x1 S1600000x80 [1] [0] [] [0] [] 1 ![1, 80]
  dot_S4000x80_S80x128_S4000x128_1_0_0_1_n_n_wf : DotDims.WF S4000x80 S80x128 S4000x128 [1] [0] [0] [1] [] []
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x80.size a ≤ S1600000x80.size a
  hwx0_0 : ∀ i : grid0.Coords, EltTy.bits .f32 = 32 ∨ (Rect.block (s := S1600000x80) S4000x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x80.size a ≤ S1600000x80.size a
  hwx0_1 : ∀ i : grid0.Coords, EltTy.bits .f32 = 32 ∨ (Rect.block (s := S1600000x80) S4000x80.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S1600000x1.size a
  hwx0_2 : ∀ i : grid0.Coords, EltTy.bits .f32 = 32 ∨ (Rect.block (s := S1600000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x80.size a ≤ S1x80.size a
  hwx0_3 : ∀ i : grid0.Coords, EltTy.bits .f32 = 32 ∨ (Rect.block (s := S1x80) S1x80.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S80x128.size a ≤ S80x128.size a
  hwx0_4 : ∀ i : grid0.Coords, EltTy.bits .bf16 = 32 ∨ (Rect.block (s := S80x128) S80x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S80x128.size a ≤ S80x128.size a
  hwx0_5 : ∀ i : grid0.Coords, EltTy.bits .bf16 = 32 ∨ (Rect.block (s := S80x128) S80x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x64.size a ≤ S128x64.size a
  hwx0_11 : ∀ i : grid0.Coords, EltTy.bits .bf16 = 32 ∨ (Rect.block (s := S128x64) S128x64.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x1.size a ≤ S1600000x1.size a
  hwx0_13 : ∀ i : grid0.Coords, EltTy.bits .f32 = 32 ∨ (Rect.block (s := S1600000x1) S4000x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4000x64.size a ≤ S1600000x64.size a
  hwx0_14 : ∀ i : grid0.Coords, EltTy.bits .f32 = 32 ∨ (Rect.block (s := S1600000x64) S4000x64.size (cc0_transform_14 i) (hinb0_14 i)).WholeWords (EltTy.packing .f32)

variable [Facts₀]

def gather_S100000x80_S1600000x1_S1600000x80_1_0_n_n_0_1_180 : GatherDims S100000x80 S1600000x1 S1600000x80 where
  offsetDims := [1]
  collapsedSliceDims := [0]
  operandBatchingDims := []
  startIndicesBatchingDims := []
  startIndexMap := [0]
  indexVectorDim := 1
  sliceSizes := ![1, 80]
  wf := gather_S100000x80_S1600000x1_S1600000x80_1_0_n_n_0_1_180_wf
def dot_S4000x80_S80x128_S4000x128_1_0_0_1_n_n : DotDims S4000x80 S80x128 S4000x128 where
  lhsContracting := [1]
  rhsContracting := [0]
  lhsNonContracting := [0]
  rhsNonContracting := [1]
  lhsBatch := []
  rhsBatch := []
  wf := dot_S4000x80_S80x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_v7) S4000x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4000x80.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_cst) S1x80.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S80x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S80x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v24) S128x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v27) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v28_0) S4000x1.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v28_1) S4000x64.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S100000x16 : Shape := ⟨2, ![100000, 16]⟩
abbrev S100000x64 : Shape := ⟨2, ![100000, 64]⟩
abbrev S1600000 : Shape := ⟨1, ![1600000]⟩
abbrev S162x128 : Shape := ⟨2, ![162, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x16 : Shape := ⟨2, ![1600000, 16]⟩
abbrev S1600000x64 : Shape := ⟨2, ![1600000, 64]⟩
abbrev S1600000x162 : Shape := ⟨2, ![1600000, 162]⟩
abbrev S1600000x128 : Shape := ⟨2, ![1600000, 128]⟩
abbrev S1x128 : Shape := ⟨2, ![1, 128]⟩
abbrev S1x64 : Shape := ⟨2, ![1, 64]⟩

abbrev nBuf : Space → Nat
  | .hbm => 83
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S100000x64, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S162x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x16, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x16, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .f32⟩
  | .hbm, ⟨47, _⟩ => ⟨S_, .f32⟩
  | .hbm, ⟨48, _⟩ => ⟨S_, .f32⟩
  | .hbm, ⟨49, _⟩ => ⟨S1600000x64, .f32⟩
  | .hbm, ⟨50, _⟩ => ⟨S_, .f32⟩
  | .hbm, ⟨51, _⟩ => ⟨S1600000, .f32⟩
  | .hbm, ⟨52, _⟩ => ⟨S1600000x1, .f32⟩
  | .hbm, ⟨53, _⟩ => ⟨S1600000x1, .f32⟩
  | .hbm, ⟨54, _⟩ => ⟨S1600000x1, .f32⟩
  | .hbm, ⟨55, _⟩ => ⟨S1600000x1, .f32⟩
  | .hbm, ⟨56, _⟩ => ⟨S1600000x1, .f32⟩
  | .hbm, ⟨57, _⟩ => ⟨S_, .f32⟩
  | .hbm, ⟨58, _⟩ => ⟨S1600000x1, .f32⟩
  | .hbm, ⟨59, _⟩ => ⟨S1600000x1, .f32⟩
  | .hbm, ⟨60, _⟩ => ⟨S_, .f32⟩
  | .hbm, ⟨61, _⟩ => ⟨S1600000x1, .f32⟩
  | .hbm, ⟨62, _⟩ => ⟨S1600000x1, .f32⟩
  | .hbm, ⟨63, _⟩ => ⟨S1600000x1, .f32⟩
  | .hbm, ⟨64, _⟩ => ⟨S1600000x162, .f32⟩
  | .hbm, ⟨65, _⟩ => ⟨S1600000x128, .f32⟩
  | .hbm, ⟨66, _⟩ => ⟨S1x128, .f32⟩
  | .hbm, ⟨67, _⟩ => ⟨S1600000x128, .f32⟩
  | .hbm, ⟨68, _⟩ => ⟨S1600000x128, .f32⟩
  | .hbm, ⟨69, _⟩ => ⟨S_, .f32⟩
  | .hbm, ⟨70, _⟩ => ⟨S1600000x128, .f32⟩
  | .hbm, ⟨71, _⟩ => ⟨S1600000x128, .f32⟩
  | .hbm, ⟨72, _⟩ => ⟨S1600000x128, .f32⟩
  | .hbm, ⟨73, _⟩ => ⟨S1x128, .f32⟩
  | .hbm, ⟨74, _⟩ => ⟨S1600000x128, .f32⟩
  | .hbm, ⟨75, _⟩ => ⟨S1600000x128, .f32⟩
  | .hbm, ⟨76, _⟩ => ⟨S_, .f32⟩
  | .hbm, ⟨77, _⟩ => ⟨S1600000x128, .f32⟩
  | .hbm, ⟨78, _⟩ => ⟨S1600000x128, .f32⟩
  | .hbm, ⟨79, _⟩ => ⟨S1600000x64, .f32⟩
  | .hbm, ⟨80, _⟩ => ⟨S1x64, .f32⟩
  | .hbm, ⟨81, _⟩ => ⟨S1600000x64, .f32⟩
  | .hbm, ⟨82, _⟩ => ⟨S1600000x64, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_call0_cst : Ref sig .tc := ⟨.hbm, 69, rfl⟩
abbrev main_call0_v0 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x64_S1600000_d1 : S1600000x64.ReducesTo [1] S1600000
  h_S_ : 0 < S_.numel
  bcast_S_S1600000x1 : S_.BroadcastsInDim S1600000x1 (![] : Fin 0 → Fin S1600000x1.rank)
  concatenates_S1600000x16_S1600000x64_S1600000x16_S1600000x64_S1600000x1_S1600000x1_S1600000x162_d1 : Shape.Concatenates [S1600000x16, S1600000x64, S1600000x16, S1600000x64, S1600000x1, S1600000x1] S1600000x162 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  gather_S100000x16_S1600000x1_S1600000x16_1_0_n_n_0_1_116_wf : GatherDims.WF S100000x16 S1600000x1 S1600000x16 [1] [0] [] [0] [] 1 ![1, 16]
  gather_S100000x64_S1600000x1_S1600000x64_1_0_n_n_0_1_164_wf : GatherDims.WF S100000x64 S1600000x1 S1600000x64 [1] [0] [] [0] [] 1 ![1, 64]
  dot_S1600000x162_S162x128_S1600000x128_1_0_0_1_n_n_wf : DotDims.WF S1600000x162 S162x128 S1600000x128 [1] [0] [0] [1] [] []
  dot_S1600000x128_S128x128_S1600000x128_1_0_0_1_n_n_wf : DotDims.WF S1600000x128 S128x128 S1600000x128 [1] [0] [0] [1] [] []
  dot_S1600000x128_S128x64_S1600000x64_1_0_0_1_n_n_wf : DotDims.WF S1600000x128 S128x64 S1600000x64 [1] [0] [0] [1] [] []

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x162_S162x128_S1600000x128_1_0_0_1_n_n : DotDims S1600000x162 S162x128 S1600000x128 where
  lhsContracting := [1]
  rhsContracting := [0]
  lhsNonContracting := [0]
  rhsNonContracting := [1]
  lhsBatch := []
  rhsBatch := []
  wf := dot_S1600000x162_S162x128_S1600000x128_1_0_0_1_n_n_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf

class Facts : Prop extends Facts₀ where

variable [Facts]
-- ==== Proof.LibDot.lean ====
/-
  General lemma: a plain matrix product read at an entry.

  For the dimension numbers "rows × contraction times contraction × columns" with no batch axis, the kernel's matrix
  product into a zero accumulator and the host's `dot_general` are, at the ideal instance, the same exact sum: entry (p, q)
  is the sum over k of lhs (p, k) · rhs (k, q).
-/
import Idealize.ShloMosaic.PureOps.Ideal
import Idealize.ShloMosaic.PureOps.Ideal.Laws
import Idealize.ShloMosaic.Lib.ValueIdx

noncomputable section

namespace Cert.Lib.Dot

open Idealize.ShloMosaic Idealize.ShloMosaic.ValueIdx

variable {M K N : Nat} {φ₁ φ₂ : FTy}

/-- The left operand's index at result entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ =>
    exact ((DotDims.plain M K N).lhsIdx_val_of_single (cl := 1) rfl _ _).trans
      (contrEquiv1_symm_val (DotDims.plain M K N) K rfl rfl k)

/-- The right operand's index there is (k, q). -/
theorem plain_rhsIdx (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ =>
    exact ((DotDims.plain M K N).rhsIdx_val_of_single (cr := 0) rfl _ _).trans
      (contrEquiv1_symm_val (DotDims.plain M K N) K rfl rfl k)
  | ⟨1, _⟩ => rfl

/-- The kernel's product into a zero accumulator, at entry (p, q). -/
theorem matmul_plain_apply (prec : Option ContractPrecision) (lhs : FVec Ideal ⟨2, ![M, K]⟩ φ₁) (rhs : FVec Ideal ⟨2, ![K, N]⟩ φ₂)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  exact Finset.sum_congr rfl fun k _ => by rw [plain_lhsIdx, plain_rhsIdx]

/-- The host's `dot_general`, at entry (p, q). -/
theorem dotGeneral_plain_apply (prec : Option ContractPrecision) (sched : HostSchedule) (lhs : FVec Ideal ⟨2, ![M, K]⟩ φ₁)
    (rhs : FVec Ideal ⟨2, ![K, N]⟩ φ₂) (p : Fin M) (q : Fin N) :
    FloatOps.dotGeneral (DotDims.plain M K N) prec sched lhs rhs (ix2 p q) = ∑ k : Fin K, lhs (ix2 p k) * rhs (ix2 k q) := by
  rw [Ideal.dotGeneral_apply, ← Equiv.sum_comp (contrEquiv1 (DotDims.plain M K N) K rfl rfl).symm]
  exact Finset.sum_congr rfl fun k _ => by rw [plain_lhsIdx, plain_rhsIdx]

end Cert.Lib.Dot

end
-- ==== Proof.LibKeepdims.lean ====
/-
  A vector turned into a one-column matrix, read at an entry.

  Casting an array of shape [a] to shape [a, 1] moves nothing: entry (i, 0) of the column is entry i of the vector. Both sit at
  row-major position i, which is all a shape cast looks at.
-/
import Idealize.ShloMosaic.Lib.ValueLayout
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.Keepdims
-- ==== Proof.LibColumnBroadcast.lean ====
/-
  General lemma: one column broadcast over many, read at an entry.

  An [a, 1] array broadcast to [a, b] reads, at (p, c), the operand's row p at its one column.
-/
import Idealize.ShloMosaic.Lib.ValueIdx
import Idealize.ShloMosaic.Lib.Pipeline.Value

namespace Cert.Lib.ColumnBroadcast

open Idealize.ShloMosaic Idealize.ShloMosaic.ValueIdx

variable {α : Type}

/-- An `[a, 1]` array broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Lib.ColumnBroadcast
-- ==== Proof.KernelRow.lean ====
/-
  One grid point of the kernel, read entry by entry on the extended reals.

  The body's three values, each as a function of the blocks it loads:
  * the attention weight of row r: the logistic function of 0.125 times the sum over the 80 columns of
    dst · src · mask;
  * the first layer before its bias, entry (r, j): the row of dst times the dst weights, plus the row of src times the
    src weights, plus the distance times its weight row, plus the attention weight times its weight row;
  * the output, entry (r, q): two more layers, each a bias added, the maximum with 0 taken, a matrix product; then the last
    bias.
  A change of float format is the identity on the extended reals, and a matrix product into a zero accumulator is the plain sum of
  products.
-/
import proofs.«177085_j24137716203976_2_alg».proof.Proof.Gen.KernelIdeal.Skeleton
import proofs.«177085_j24137716203976_2_alg».proof.Proof.LibDot
import proofs.«177085_j24137716203976_2_alg».proof.Proof.LibKeepdims
import proofs.«177085_j24137716203976_2_alg».proof.Proof.LibColumnBroadcast
import Idealize.ShloMosaic.PureOps.Ideal.Laws
import Idealize.ShloMosaic.Lib.ValueIdx
import Idealize.ShloMosaic.Lib.ValueLayout
import Idealize.ShloMosaic.Lib.Pipeline.Value

set_option pp.maxSteps 8000
set_option pp.deepTerms false

noncomputable section

namespace Cert.EdgeMlp.KernelRow

open Idealize.ShloMosaic Idealize.ShloMosaic.ValueIdx Cert.KernelIdeal Cert.KernelIdeal.Gen

/-- The reduced index r with column k put back is (r, k). -/
theorem lift_row (r : Fin 4000) (k : Fin (S4000x80.size 1)) :
    reduces_S4000x80_S4000.lift (ix1 r) k = ix2 r (⟨k.val, k.isLt⟩ : Fin 80) := by
  funext c; apply Fin.ext
  fin_cases c <;> rfl

/-- The attention weight of row r of the block. -/
theorem pay4_apply (x0 x1 : Vec Ideal S4000x80 .f32) (x3 : Vec Ideal S1x80 .f32) (r : Fin 4000) (u : Fin 1) :
    k0_pay4 x0 x1 x3 (ix2 r u)
      = Ideal.logistic ((∑ k : Fin 80, (x0 (ix2 r k) * x1 (ix2 r k)) * x3 (ix2 (0 : Fin 1) k))
          * Ideal.ofBits .f32 0x3E000000#32) := by
  unfold k0_pay4 k0_pay2 k0_pay3
  refine congrArg (fun z : EReal => Ideal.logistic (z * Ideal.ofBits .f32 0x3E000000#32)) ?_
  refine (Idealize.ShloMosaic.Keepdims.shapeCast_a_a1_apply _ _ r u).trans ?_
  refine (Ideal.multiReduction_add_single _ _ _ _ _ (ix1 r)).trans ?_
  refine Finset.sum_congr rfl fun k _ => ?_
  rw [lift_row]
  show (shapeCast S4000x80 x0 shapeCasts_S4000x80_S4000x80 (ix2 r ⟨k.val, k.isLt⟩)
      * shapeCast S4000x80 x1 shapeCasts_S4000x80_S4000x80 (ix2 r ⟨k.val, k.isLt⟩))
      * broadcastTo S4000x80 x3 broadcasts_S1x80_S4000x80 (ix2 r ⟨k.val, k.isLt⟩) = _
  rw [shapeCast_self, shapeCast_self, broadcastTo_1b_ab_apply]
  rfl

/-- A weight or bias block as loaded: the cast to its own shape is the identity. -/
theorem row_apply {b : ℕ} (v : (⟨2, ![1, b]⟩ : Shape).Idx → EReal) (hc : (⟨2, ![1, b]⟩ : Shape).ShapeCasts ⟨2, ![1, b]⟩)
    (hb : (⟨2, ![1, b]⟩ : Shape).Broadcasts ⟨2, ![4000, b]⟩) (r : Fin 4000) (j : Fin b) :
    broadcastTo ⟨2, ![4000, b]⟩ (shapeCast ⟨2, ![1, b]⟩ v hc) hb (ix2 r j) = v (ix2 (0 : Fin 1) j) := by
  rw [broadcastTo_1b_ab_apply, shapeCast_self]

/-- The first layer before its bias, entry (r, j) of the block. -/
theorem pay5_apply (x0 x1 : Vec Ideal S4000x80 .f32) (x2 : Vec Ideal S4000x1 .f32) (x3 : Vec Ideal S1x80 .f32)
    (x4 x5 : Vec Ideal S80x128 .bf16) (x6 x7 : Vec Ideal S1x128 .f32) (r : Fin 4000) (j : Fin 128) :
    k0_pay5 x0 x1 x2 x3 x4 x5 x6 x7 (ix2 r j)
      = (((∑ k : Fin 80, x0 (ix2 r k) * x4 (ix2 k j)) + (∑ k : Fin 80, x1 (ix2 r k) * x5 (ix2 k j)))
          + x2 (ix2 r (0 : Fin 1)) * x6 (ix2 (0 : Fin 1) j))
        + k0_pay4 x0 x1 x3 (ix2 r (0 : Fin 1)) * x7 (ix2 (0 : Fin 1) j) := by
  unfold k0_pay5 k0_pay2 k0_pay3
  refine congrArg₂ (· + ·) (congrArg₂ (· + ·) (congrArg₂ (· + ·) ?_ ?_) (congrArg₂ (· * ·) ?_ ?_))
    (congrArg₂ (· * ·) ?_ ?_)
  · refine (Cert.Lib.Dot.matmul_plain_apply none _ _ r j).trans (Finset.sum_congr rfl fun k _ => ?_)
    refine congrArg₂ (· * ·) ?_ ?_
    · exact congrFun (shapeCast_self x0 _) _
    · exact congrFun (shapeCast_self x4 _) _
  · refine (Cert.Lib.Dot.matmul_plain_apply none _ _ r j).trans (Finset.sum_congr rfl fun k _ => ?_)
    refine congrArg₂ (· * ·) ?_ ?_
    · exact congrFun (shapeCast_self x1 _) _
    · exact congrFun (shapeCast_self x5 _) _
  · refine (Cert.Lib.ColumnBroadcast.broadcastTo_a1_ab_apply _ _ r j).trans ?_
    exact congrFun (shapeCast_self x2 _) _
  · exact row_apply x6 _ _ r j
  · exact Cert.Lib.ColumnBroadcast.broadcastTo_a1_ab_apply _ _ r j
  · exact row_apply x7 _ _ r j

/-- The output, entry (r, q) of the block, from the first layer before its bias. -/
theorem pay1_apply (v35 : FVec Ideal S4000x128 .f32) (v36 : Vec Ideal S1x128 .f32) (v43 : Vec Ideal S128x128 .bf16)
    (v46 : Vec Ideal S1x128 .f32) (v53 : Vec Ideal S128x64 .bf16) (v56 : Vec Ideal S1x64 .f32) (r : Fin 4000) (q : Fin 64) :
    k0_pay1 v35 v36 v43 v46 v53 v56 (ix2 r q)
      = (∑ k2 : Fin 128,
            max ((∑ k1 : Fin 128,
                    max (v35 (ix2 r k1) + v36 (ix2 (0 : Fin 1) k1)) (Ideal.ofBits .f32 0x00000000#32) * v43 (ix2 k1 k2))
                  + v46 (ix2 (0 : Fin 1) k2)) (Ideal.ofBits .f32 0x00000000#32)
              * v53 (ix2 k2 q))
        + v56 (ix2 (0 : Fin 1) q) := by
  unfold k0_pay1
  refine congrArg₂ (· + ·) ?_ (row_apply v56 _ _ r q)
  refine (Cert.Lib.Dot.matmul_plain_apply none _ _ r q).trans (Finset.sum_congr rfl fun k2 _ => ?_)
  refine congrArg₂ (· * ·) ?_ (congrFun (shapeCast_self v53 _) _)
  refine congrArg₂ max (congrArg₂ (· + ·) ?_ (row_apply v46 _ _ r k2)) rfl
  refine (Cert.Lib.Dot.matmul_plain_apply none _ _ r k2).trans (Finset.sum_congr rfl fun k1 _ => ?_)
  refine congrArg₂ (· * ·) ?_ (congrFun (shapeCast_self v43 _) _)
  exact congrArg₂ max (congrArg₂ (· + ·) rfl (row_apply v36 _ _ r k1)) rfl

end Cert.EdgeMlp.KernelRow

end
-- ==== Proof.RowAlgebra.lean ====
/-
  The algebra that joins the two programs, on the extended reals.

  * A sum over 80 columns whose terms carry a 0/1 weight — 0 on the first 16 columns, 1 on the other 64 — is the sum
    of the last 64 terms: a term times 0 is 0 and a term times 1 is itself, for every extended real.
  * A sum over 162 columns is the sum of its first 80 terms, plus the sum of the next 80, plus term 160, plus term 161
    (addition of extended reals is commutative and associative; nothing has to be finite).
  * The float words met on the way: 0.0, 1.0, 0.125 and 64.0; the square root of 64 is 8, and dividing by 8 is
    multiplying by 0.125, at the infinities too.
  * max is commutative.
-/
import Idealize.ShloMosaic.PureOps.Ideal
import Idealize.ShloMosaic.PureOps.Ideal.Laws

noncomputable section

namespace Cert.EdgeMlp.Algebra

open Idealize.ShloMosaic

/-- The word of 1.0 denotes 1. -/
theorem ofBits_one : Ideal.ofBits .f32 0x3F800000#32 = 1 := by
  simp [Ideal.ofBits, Ideal.ieee, -EReal.coe_mul]; norm_num

/-- The word of 0.125 denotes the real 1/8. -/
theorem ofBits_eighth : Ideal.ofBits .f32 0x3E000000#32 = ((1 / 8 : ℝ) : EReal) := by
  simp [Ideal.ofBits, Ideal.ieee, -EReal.coe_mul]; norm_num

/-- The word of 64.0 denotes the real 64. -/
theorem ofBits_64 : Ideal.ofBits .f32 0x42800000#32 = ((64 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  rw [Ideal.sqrt_coe, if_neg (by norm_num)]
  congr 1
  rw [show (64 : ℝ) = 8 ^ 2 by norm_num, Real.sqrt_sq (by norm_num)]

/-- Dividing by the square root of 64.0 is multiplying by 0.125, for every extended real. -/
theorem div_sqrt_64 (x : EReal) :
    Ideal.div x (Ideal.sqrt (Ideal.ofBits .f32 0x42800000#32)) = x * Ideal.ofBits .f32 0x3E000000#32 := by
  rw [ofBits_64, sqrt_64, Ideal.div_coe (by norm_num), ofBits_eighth]

/-- A sum over 80 columns weighted 0 on the first 16 and 1 on the other 64 is the sum of the last 64 terms. -/
theorem sum_weighted (f w : Fin 80 → EReal) (h0 : ∀ k : Fin 80, k.val < 16 → w k = 0)
    (h1 : ∀ k : Fin 80, 16 ≤ k.val → w k = 1) :
    ∑ k : Fin 80, f k * w k = ∑ j : Fin 64, f ⟨16 + j.val, by omega⟩ := by
  rw [show (∑ k : Fin 80, f k * w k) = ∑ k : Fin (16 + 64), f k * w k from rfl, Fin.sum_univ_add]
  have e0 : ∑ i : Fin 16, f (Fin.castAdd 64 i) * w (Fin.castAdd 64 i) = 0 :=
    Finset.sum_eq_zero fun i _ => by rw [h0 _ (by simp), mul_zero]
  rw [e0, zero_add]
  refine Finset.sum_congr rfl fun j _ => ?_
  rw [h1 _ (by simp), mul_one]
  rfl

/-- A sum over 162 columns, cut at 80, 160 and 161. -/
theorem sum_162 (g : Fin 162 → EReal) :
    ∑ k : Fin 162, g k
      = ((∑ k : Fin 80, g ⟨k.val, by omega⟩ + ∑ k : Fin 80, g ⟨80 + k.val, by omega⟩) + g ⟨160, by omega⟩) + g ⟨161, by omega⟩ := by
  rw [show (∑ k : Fin 162, g k) = ∑ k : Fin (80 + 80 + 1 + 1), g k from rfl, Fin.sum_univ_add, Fin.sum_univ_add,
    Fin.sum_univ_add, Fin.sum_univ_one, Fin.sum_univ_one]
  rfl

end Cert.EdgeMlp.Algebra

end
-- ==== Proof.EdgeRows.lean ====
/-
  One edge of the graph, as plain mathematics on the extended reals (no program is mentioned here).

  A row of the table [features | h] is the 16 feature entries followed by the 64 entries of h. For an edge with destination
  row d and source row s (80 entries each), distance x and attention weight a:
  * the attention weight is the logistic function of the inner product of the two h parts divided by the square root of 64;
    weighting the 80 products by a mask that is 0 on the features and 1 on h, summing them all and multiplying by 0.125
    gives the same number, because a term times 0 vanishes, a term times 1 stays, the square root of 64 is 8 and dividing
    by 8 is multiplying by 0.125;
  * the first layer's entry j is the sum over the 162 entries of [d | s | x | a] against column j of the weights; cutting that sum
    at 80, 160 and 161 gives the four partial products the kernel adds up.
-/
import proofs.«177085_j24137716203976_2_alg».proof.Proof.RowAlgebra
import Idealize.ShloMosaic.Lib.ValueIdx

noncomputable section

namespace Cert.EdgeMlp.Rows

open Idealize.ShloMosaic Idealize.ShloMosaic.ValueIdx Cert.EdgeMlp.Algebra

/-- Row n of the table [features | h]: entry k is feature k for k < 16, entry k − 16 of h otherwise. -/
def catRow (nf : (⟨2, ![100000, 16]⟩ : Shape).Idx → EReal) (nh : (⟨2, ![100000, 64]⟩ : Shape).Idx → EReal)
    (n : Fin 100000) (k : Fin 80) : EReal :=
  if h : k.val < 16 then nf (ix2 n (⟨k.val, h⟩ : Fin 16)) else nh (ix2 n (⟨k.val - 16, by omega⟩ : Fin 64))

theorem catRow_feat (nf : (⟨2, ![100000, 16]⟩ : Shape).Idx → EReal) (nh : (⟨2, ![100000, 64]⟩ : Shape).Idx → EReal)
    (n : Fin 100000) (k : Fin 16) : catRow nf nh n ⟨k.val, by omega⟩ = nf (ix2 n k) := by
  unfold catRow; rw [dif_pos k.isLt]

theorem catRow_h (nf : (⟨2, ![100000, 16]⟩ : Shape).Idx → EReal) (nh : (⟨2, ![100000, 64]⟩ : Shape).Idx → EReal)
    (n : Fin 100000) (j : Fin 64) : catRow nf nh n ⟨16 + j.val, by omega⟩ = nh (ix2 n j) := by
  unfold catRow; rw [dif_neg (by simp)]
  exact congrArg nh (congrArg (ix2 n) (Fin.ext (by simp)))

/-- The attention weight, the way the kernel computes it: 80 masked products, summed, times 0.125, through the logistic
    function. -/
def attnMasked (d s w : Fin 80 → EReal) : EReal :=
  Ideal.logistic ((∑ k : Fin 80, (d k * s k) * w k) * Ideal.ofBits .f32 0x3E000000#32)

/-- The attention weight, the way the reference computes it: 1 / (1 + exp (−(⟨dh, sh⟩ / √64))), the sum started from the
    word 0.0 and the ones the word 1.0. -/
def attnPlain (dh sh : Fin 64 → EReal) : EReal :=
  Ideal.div (Ideal.ofBits .f32 0x3F800000#32)
    (Ideal.ofBits .f32 0x3F800000#32
      + Ideal.exp (-(Ideal.div (Ideal.ofBits .f32 0x00000000#32 + ∑ j : Fin 64, dh j * sh j)
          (Ideal.sqrt (Ideal.ofBits .f32 0x42800000#32)))))

/-- The two attention weights are one number when the mask is 0 on the 16 features and 1 on the 64 entries of h. -/
theorem attnMasked_eq (d s w : Fin 80 → EReal) (h0 : ∀ k : Fin 80, k.val < 16 → w k = 0)
    (h1 : ∀ k : Fin 80, 16 ≤ k.val → w k = 1) :
    attnMasked d s w = attnPlain (fun j => d ⟨16 + j.val, by omega⟩) (fun j => s ⟨16 + j.val, by omega⟩) := by
  unfold attnMasked attnPlain
  rw [sum_weighted (fun k => d k * s k) w h0 h1, div_sqrt_64, Ideal.ofBits_zero_f32, zero_add, ofBits_one]
  rfl

/-- The first layer before its bias, the way the kernel computes it: four partial products. -/
def layer1Split (d s : Fin 80 → EReal) (x a : EReal) (wd ws : Fin 80 → EReal) (wx wa : EReal) : EReal :=
  (((∑ k : Fin 80, d k * wd k) + (∑ k : Fin 80, s k * ws k)) + x * wx) + a * wa

/-- The first layer's 162 inputs [d | s | x | a]. -/
def edgeInput (d s : Fin 80 → EReal) (x a : EReal) (k : Fin 162) : EReal :=
  if h : k.val < 80 then d ⟨k.val, h⟩
  else if h' : k.val < 160 then s ⟨k.val - 80, by omega⟩
  else if k.val = 160 then x else a

/-- One sum over the 162 inputs is the four partial products. -/
theorem layer1_eq (d s : Fin 80 → EReal) (x a : EReal) (w : Fin 162 → EReal) :
    ∑ k : Fin 162, edgeInput d s x a k * w k
      = layer1Split d s x a (fun k => w ⟨k.val, by omega⟩) (fun k => w ⟨80 + k.val, by omega⟩) (w ⟨160, by omega⟩)
          (w ⟨161, by omega⟩) := by
  rw [sum_162]
  unfold layer1Split
  refine congrArg₂ (· + ·) (congrArg₂ (· + ·) (congrArg₂ (· + ·) ?_ ?_) ?_) ?_
  · refine Finset.sum_congr rfl fun k _ => ?_
    unfold edgeInput; rw [dif_pos (by simp)]
  · refine Finset.sum_congr rfl fun k _ => ?_
    unfold edgeInput
    rw [dif_neg (by simp), dif_pos (by simp; omega)]
    exact congrArg (fun z => s z * _) (Fin.ext (by simp))
  · unfold edgeInput; rw [dif_neg (by simp), dif_neg (by simp), if_pos rfl]
  · unfold edgeInput; rw [dif_neg (by simp), dif_neg (by simp), if_neg (by simp)]

/-- The two layers after the first: a bias, the maximum with the word 0.0, a product with a 128 × 128 matrix, a bias, the
    maximum, a product with a column of the last matrix, the last bias. -/
def tail (h1 b1 : Fin 128 → EReal) (w2 : Fin 128 → Fin 128 → EReal) (b2 w3 : Fin 128 → EReal) (b3 : EReal) : EReal :=
  (∑ k2 : Fin 128,
      max ((∑ k1 : Fin 128, max (h1 k1 + b1 k1) (Ideal.ofBits .f32 0x00000000#32) * w2 k1 k2) + b2 k2)
          (Ideal.ofBits .f32 0x00000000#32)
        * w3 k2)
    + b3

end Cert.EdgeMlp.Rows

end
-- ==== Proof.KernelArrays.lean ====
/-
  What the kernel leaves in its two result arrays, as functions of the arrays it stages — and that one grid point writes
  exactly its 4000 rows of them.

  Grid point T handles edges 4000·T … 4000·T + 3999: row r of its dst, src and distance blocks is row 4000·T + r of the staged
  arrays, and the mask, the weights and the biases are the same whole arrays at every point. Row r of what the point stores is
  therefore the attention weight, and the three-layer output, of edge 4000·T + r.
-/
import proofs.«177085_j24137716203976_2_alg».proof.Proof.KernelRow
import proofs.«177085_j24137716203976_2_alg».proof.Proof.EdgeRows

set_option pp.maxSteps 8000
set_option pp.deepTerms false

noncomputable section

namespace Cert.EdgeMlp.KernelArrays

open Idealize.ShloMosaic Idealize.ShloMosaic.ValueIdx Cert.KernelIdeal Cert.KernelIdeal.Gen Cert.EdgeMlp.Rows
open Cert.EdgeMlp.KernelRow

/-- The attention array from the staged dst rows, src rows and mask. -/
def attnArr (a7 a14 : S1600000x80.Idx → EReal) (ac : S1x80.Idx → EReal) : S1600000x1.Idx → EReal := fun i =>
  attnMasked (fun k => a7 (ix2 (⟨(i 0).val, idx2_lt0 i⟩ : Fin 1600000) k)) (fun k => a14 (ix2 (⟨(i 0).val, idx2_lt0 i⟩ : Fin 1600000) k))
    (fun k => ac (ix2 (0 : Fin 1) k))

/-- The first layer before its bias, for edge e and column j, from the staged arrays. -/
def layer1Arr (a7 a14 : S1600000x80.Idx → EReal) (a16 : S1600000x1.Idx → EReal) (ac : S1x80.Idx → EReal)
    (a18 a20 : S80x128.Idx → EReal) (a21 a22 : S1x128.Idx → EReal) (e : Fin 1600000) (j : Fin 128) : EReal :=
  layer1Split (fun k => a7 (ix2 e k)) (fun k => a14 (ix2 e k)) (a16 (ix2 e (0 : Fin 1)))
    (attnMasked (fun k => a7 (ix2 e k)) (fun k => a14 (ix2 e k)) (fun k => ac (ix2 (0 : Fin 1) k)))
    (fun k => a18 (ix2 k j)) (fun k => a20 (ix2 k j)) (a21 (ix2 (0 : Fin 1) j)) (a22 (ix2 (0 : Fin 1) j))

/-- The output array from the staged arrays. -/
def outArr (a7 a14 : S1600000x80.Idx → EReal) (a16 : S1600000x1.Idx → EReal) (ac : S1x80.Idx → EReal)
    (a18 a20 : S80x128.Idx → EReal) (a21 a22 a25 : S1x128.Idx → EReal) (a23 : S128x128.Idx → EReal)
    (a26 : S1x128.Idx → EReal) (a24 : S128x64.Idx → EReal) (a27 : S1x64.Idx → EReal) : S1600000x64.Idx → EReal := fun i =>
  tail (fun k1 => layer1Arr a7 a14 a16 ac a18 a20 a21 a22 (⟨(i 0).val, idx2_lt0 i⟩ : Fin 1600000) k1)
    (fun k1 => a25 (ix2 (0 : Fin 1) k1)) (fun k1 k2 => a23 (ix2 k1 k2)) (fun k2 => a26 (ix2 (0 : Fin 1) k2))
    (fun k2 => a24 (ix2 k2 (⟨(i 1).val, idx2_lt1 i⟩ : Fin 64))) (a27 (ix2 (0 : Fin 1) (⟨(i 1).val, idx2_lt1 i⟩ : Fin 64)))

/-- Row r of the attention block a grid point stores is the attention array at the edge that row stands for. -/
theorem point_attn (a7 a14 : S1600000x80.Idx → EReal) (ac : S1x80.Idx → EReal)
    (x0 x1 : Vec Ideal S4000x80 .f32) (x3 : Vec Ideal S1x80 .f32) (E : Fin 4000 → Fin 1600000)
    (h0 : ∀ (r : Fin 4000) (k : Fin 80), x0 (ix2 r k) = a7 (ix2 (E r) k))
    (h1 : ∀ (r : Fin 4000) (k : Fin 80), x1 (ix2 r k) = a14 (ix2 (E r) k))
    (h3 : ∀ k : Fin 80, x3 (ix2 (0 : Fin 1) k) = ac (ix2 (0 : Fin 1) k)) (r : Fin 4000) (u : Fin 1) :
    k0_pay4 x0 x1 x3 (ix2 r u) = attnArr a7 a14 ac (ix2 (E r) u) := by
  rw [pay4_apply]
  unfold attnArr attnMasked
  simp only [h0, h1, h3]

/-- Row r of the output block a grid point stores is the output array at the edge that row stands for. -/
theorem point_out (a7 a14 : S1600000x80.Idx → EReal) (a16 : S1600000x1.Idx → EReal) (ac : S1x80.Idx → EReal)
    (a18 a20 : S80x128.Idx → EReal) (a21 a22 a25 : S1x128.Idx → EReal) (a23 : S128x128.Idx → EReal)
    (a26 : S1x128.Idx → EReal) (a24 : S128x64.Idx → EReal) (a27 : S1x64.Idx → EReal)
    (x0 x1 : Vec Ideal S4000x80 .f32) (x2 : Vec Ideal S4000x1 .f32) (x3 : Vec Ideal S1x80 .f32)
    (x4 x5 : Vec Ideal S80x128 .bf16) (x6 x7 x8 : Vec Ideal S1x128 .f32) (x9 : Vec Ideal S128x128 .bf16)
    (x10 : Vec Ideal S1x128 .f32) (x11 : Vec Ideal S128x64 .bf16) (x12 : Vec Ideal S1x64 .f32)
    (E : Fin 4000 → Fin 1600000)
    (h0 : ∀ (r : Fin 4000) (k : Fin 80), x0 (ix2 r k) = a7 (ix2 (E r) k))
    (h1 : ∀ (r : Fin 4000) (k : Fin 80), x1 (ix2 r k) = a14 (ix2 (E r) k))
    (h2 : ∀ (r : Fin 4000) (u : Fin 1), x2 (ix2 r u) = a16 (ix2 (E r) u))
    (h3 : ∀ k : Fin 80, x3 (ix2 (0 : Fin 1) k) = ac (ix2 (0 : Fin 1) k))
    (h4 : ∀ (k : Fin 80) (j : Fin 128), x4 (ix2 k j) = a18 (ix2 k j))
    (h5 : ∀ (k : Fin 80) (j : Fin 128), x5 (ix2 k j) = a20 (ix2 k j))
    (h6 : ∀ j : Fin 128, x6 (ix2 (0 : Fin 1) j) = a21 (ix2 (0 : Fin 1) j))
    (h7 : ∀ j : Fin 128, x7 (ix2 (0 : Fin 1) j) = a22 (ix2 (0 : Fin 1) j))
    (h8 : ∀ j : Fin 128, x8 (ix2 (0 : Fin 1) j) = a25 (ix2 (0 : Fin 1) j))
    (h9 : ∀ (k : Fin 128) (j : Fin 128), x9 (ix2 k j) = a23 (ix2 k j))
    (h10 : ∀ j : Fin 128, x10 (ix2 (0 : Fin 1) j) = a26 (ix2 (0 : Fin 1) j))
    (h11 : ∀ (k : Fin 128) (j : Fin 64), x11 (ix2 k j) = a24 (ix2 k j))
    (h12 : ∀ j : Fin 64, x12 (ix2 (0 : Fin 1) j) = a27 (ix2 (0 : Fin 1) j)) (r : Fin 4000) (q : Fin 64) :
    k0_pay1 (k0_pay5 x0 x1 x2 x3 x4 x5 x6 x7) x8 x9 x10 x11 x12 (ix2 r q)
      = outArr a7 a14 a16 ac a18 a20 a21 a22 a25 a23 a26 a24 a27 (ix2 (E r) q) := by
  rw [pay1_apply]
  unfold outArr tail layer1Arr layer1Split attnMasked
  simp only [pay5_apply, pay4_apply, h0, h1, h2, h3, h4, h5, h6, h7, h8, h9, h10, h11, h12]

end Cert.EdgeMlp.KernelArrays

end
-- ==== Proof.KernelBlocks.lean ====
/-
  From the blocks the grid points write to the whole result arrays.

  The 400 grid points write the 400 consecutive blocks of 4000 rows, so every row of a result array is written by exactly one
  point — row i by point i / 4000 — and the array ends as the function of the staged arrays whose rows the points compute.
-/
import proofs.«177085_j24137716203976_2_alg».proof.Proof.Gen.KernelIdeal.Value
import proofs.«177085_j24137716203976_2_alg».proof.Proof.KernelArrays
import Idealize.ShloMosaic.Lib.Pipeline.Value

set_option pp.maxSteps 8000
set_option pp.deepTerms false

noncomputable section

namespace Cert.EdgeMlp.KernelBlocks

open Cert.KernelIdeal Cert.KernelIdeal.Gen Idealize.ShloMosaic Idealize.ShloMosaic.TcCoe Idealize.SL.Sem
open Idealize.ShloMosaic.Pipeline (Dat)
open Idealize.ShloMosaic.ValueIdx Cert.EdgeMlp.KernelArrays

variable (m : (ℓ : Loc nD τ sig) → Buf (Elt Ideal) ℓ) (ρ : Dev nD → PrngReg)

theorem hz : (![0, 0] : Fin 2 → Nat) = fun _ => 0 := funext fun a => by fin_cases a <;> rfl

/-- The blocks that move with the grid point: block index (t, 0) at point t. -/
theorem idx_moving : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

/-- The blocks that are the same whole array at every point: block index (0, 0). -/
theorem idx_fixed : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-- The edge that row r of grid point t stands for. -/
def edgeOf (t : Fin cfg0.N) (r : Fin 4000) : Fin 1600000 :=
  ⟨t.val * 4000 + r.val, by have := t.isLt; have hN : cfg0.N = 400 := N_0; have := r.isLt; omega⟩

/-- Row r of the dst block at point t is row 4000·t + r of the staged dst rows. -/
theorem blk_dst (c : Dev nD) (t : Fin cfg0.N) (r : Fin 4000) (k : Fin 80) :
    iblk m c 0 t (ix2 r k) = (V m c main_v7 : S1600000x80.Idx → EReal) (ix2 (edgeOf t r) k) := by
  show (V m c main_v7 : S1600000x80.Idx → EReal) (((cfg0.win 0).blk t).view.emb (ix2 r k)) = _
  refine congrArg (V m c main_v7 : S1600000x80.Idx → EReal) (funext fun a => Fin.ext ?_)
  obtain ⟨f0, f1, -⟩ := idx_moving t
  match a with
  | ⟨0, _⟩ => show win0_0.index t (0 : Fin 2) * 4000 + 1 * r.val = t.val * 4000 + r.val; omega
  | ⟨1, _⟩ => show win0_0.index t (1 : Fin 2) * 80 + 1 * k.val = k.val; omega

/-- Row r of the src block at point t is row 4000·t + r of the staged src rows. -/
theorem blk_src (c : Dev nD) (t : Fin cfg0.N) (r : Fin 4000) (k : Fin 80) :
    iblk m c 1 t (ix2 r k) = (V m c main_v14 : S1600000x80.Idx → EReal) (ix2 (edgeOf t r) k) := by
  show (V m c main_v14 : S1600000x80.Idx → EReal) (((cfg0.win 1).blk t).view.emb (ix2 r k)) = _
  refine congrArg (V m c main_v14 : S1600000x80.Idx → EReal) (funext fun a => Fin.ext ?_)
  obtain ⟨-, -, f0, f1, -⟩ := idx_moving t
  match a with
  | ⟨0, _⟩ => show win0_1.index t (0 : Fin 2) * 4000 + 1 * r.val = t.val * 4000 + r.val; omega
  | ⟨1, _⟩ => show win0_1.index t (1 : Fin 2) * 80 + 1 * k.val = k.val; omega

/-- Row r of the distance block at point t is row 4000·t + r of the distance column. -/
theorem blk_dist (c : Dev nD) (t : Fin cfg0.N) (r : Fin 4000) (u : Fin 1) :
    iblk m c 2 t (ix2 r u) = (V m c main_v16 : S1600000x1.Idx → EReal) (ix2 (edgeOf t r) u) := by
  show (V m c main_v16 : S1600000x1.Idx → EReal) (((cfg0.win 2).blk t).view.emb (ix2 r u)) = _
  refine congrArg (V m c main_v16 : S1600000x1.Idx → EReal) (funext fun a => Fin.ext ?_)
  obtain ⟨-, -, -, -, f0, f1, -⟩ := idx_moving t
  match a with
  | ⟨0, _⟩ => show win0_2.index t (0 : Fin 2) * 4000 + 1 * r.val = t.val * 4000 + r.val; omega
  | ⟨1, _⟩ => show win0_2.index t (1 : Fin 2) * 1 + 1 * u.val = u.val; omega

/-- The mask block is the whole mask at every point. -/
theorem blk_mask (c : Dev nD) (t : Fin cfg0.N) (p : Fin 1) (q : Fin 80) :
    iblk m c 3 t (ix2 p q) = (V m c main_cst : S1x80.Idx → EReal) (ix2 p q) := by
  show (V m c main_cst : S1x80.Idx → EReal) (((cfg0.win 3).blk t).view.emb (ix2 p q)) = _
  refine congrArg (V m c main_cst : S1x80.Idx → EReal) (funext fun a => Fin.ext ?_)
  obtain ⟨f0, f1⟩ := (idx_fixed t).1
  match a with
  | ⟨0, _⟩ => show win0_3.index t (0 : Fin 2) * 1 + 1 * p.val = p.val; omega
  | ⟨1, _⟩ => show win0_3.index t (1 : Fin 2) * 80 + 1 * q.val = q.val; omega

/-- The dst weight block is the whole array at every point. -/
theorem blk_wd (c : Dev nD) (t : Fin cfg0.N) (p : Fin 80) (q : Fin 128) :
    iblk m c 4 t (ix2 p q) = (V m c main_v18 : S80x128.Idx → EReal) (ix2 p q) := by
  show (V m c main_v18 : S80x128.Idx → EReal) (((cfg0.win 4).blk t).view.emb (ix2 p q)) = _
  refine congrArg (V m c main_v18 : S80x128.Idx → EReal) (funext fun a => Fin.ext ?_)
  obtain ⟨f0, f1⟩ := (idx_fixed t).2.1
  match a with
  | ⟨0, _⟩ => show win0_4.index t (0 : Fin 2) * 80 + 1 * p.val = p.val; omega
  | ⟨1, _⟩ => show win0_4.index t (1 : Fin 2) * 128 + 1 * q.val = q.val; omega

/-- The src weight block is the whole array at every point. -/
theorem blk_ws (c : Dev nD) (t : Fin cfg0.N) (p : Fin 80) (q : Fin 128) :
    iblk m c 5 t (ix2 p q) = (V m c main_v20 : S80x128.Idx → EReal) (ix2 p q) := by
  show (V m c main_v20 : S80x128.Idx → EReal) (((cfg0.win 5).blk t).view.emb (ix2 p q)) = _
  refine congrArg (V m c main_v20 : S80x128.Idx → EReal) (funext fun a => Fin.ext ?_)
  obtain ⟨f0, f1⟩ := (idx_fixed t).2.2.1
  match a with
  | ⟨0, _⟩ => show win0_5.index t (0 : Fin 2) * 80 + 1 * p.val = p.val; omega
  | ⟨1, _⟩ => show win0_5.index t (1 : Fin 2) * 128 + 1 * q.val = q.val; omega

/-- The distance weight row, whole at every point. -/
theorem blk_wx (c : Dev nD) (t : Fin cfg0.N) (p : Fin 1) (q : Fin 128) :
    iblk m c 6 t (ix2 p q) = (V m c main_v21 : S1x128.Idx → EReal) (ix2 p q) := by
  show (V m c main_v21 : S1x128.Idx → EReal) (((cfg0.win 6).blk t).view.emb (ix2 p q)) = _
  refine congrArg (V m c main_v21 : S1x128.Idx → EReal) (funext fun a => Fin.ext ?_)
  obtain ⟨f0, f1⟩ := (idx_fixed t).2.2.2.1
  match a with
  | ⟨0, _⟩ => show win0_6.index t (0 : Fin 2) * 1 + 1 * p.val = p.val; omega
  | ⟨1, _⟩ => show win0_6.index t (1 : Fin 2) * 128 + 1 * q.val = q.val; omega

/-- The attention weight row, whole at every point. -/
theorem blk_wa (c : Dev nD) (t : Fin cfg0.N) (p : Fin 1) (q : Fin 128) :
    iblk m c 7 t (ix2 p q) = (V m c main_v22 : S1x128.Idx → EReal) (ix2 p q) := by
  show (V m c main_v22 : S1x128.Idx → EReal) (((cfg0.win 7).blk t).view.emb (ix2 p q)) = _
  refine congrArg (V m c main_v22 : S1x128.Idx → EReal) (funext fun a => Fin.ext ?_)
  obtain ⟨f0, f1⟩ := (idx_fixed t).2.2.2.2.1
  match a with
  | ⟨0, _⟩ => show win0_7.index t (0 : Fin 2) * 1 + 1 * p.val = p.val; omega
  | ⟨1, _⟩ => show win0_7.index t (1 : Fin 2) * 128 + 1 * q.val = q.val; omega

/-- The first bias row, whole at every point. -/
theorem blk_b1 (c : Dev nD) (t : Fin cfg0.N) (p : Fin 1) (q : Fin 128) :
    iblk m c 8 t (ix2 p q) = (V m c main_v25 : S1x128.Idx → EReal) (ix2 p q) := by
  show (V m c main_v25 : S1x128.Idx → EReal) (((cfg0.win 8).blk t).view.emb (ix2 p q)) = _
  refine congrArg (V m c main_v25 : S1x128.Idx → EReal) (funext fun a => Fin.ext ?_)
  obtain ⟨f0, f1⟩ := (idx_fixed t).2.2.2.2.2.1
  match a with
  | ⟨0, _⟩ => show win0_8.index t (0 : Fin 2) * 1 + 1 * p.val = p.val; omega
  | ⟨1, _⟩ => show win0_8.index t (1 : Fin 2) * 128 + 1 * q.val = q.val; omega

/-- The second weight matrix, whole at every point. -/
theorem blk_w2 (c : Dev nD) (t : Fin cfg0.N) (p : Fin 128) (q : Fin 128) :
    iblk m c 9 t (ix2 p q) = (V m c main_v23 : S128x128.Idx → EReal) (ix2 p q) := by
  show (V m c main_v23 : S128x128.Idx → EReal) (((cfg0.win 9).blk t).view.emb (ix2 p q)) = _
  refine congrArg (V m c main_v23 : S128x128.Idx → EReal) (funext fun a => Fin.ext ?_)
  obtain ⟨f0, f1⟩ := (idx_fixed t).2.2.2.2.2.2.1
  match a with
  | ⟨0, _⟩ => show win0_9.index t (0 : Fin 2) * 128 + 1 * p.val = p.val; omega
  | ⟨1, _⟩ => show win0_9.index t (1 : Fin 2) * 128 + 1 * q.val = q.val; omega

/-- The second bias row, whole at every point. -/
theorem blk_b2 (c : Dev nD) (t : Fin cfg0.N) (p : Fin 1) (q : Fin 128) :
    iblk m c 10 t (ix2 p q) = (V m c main_v26 : S1x128.Idx → EReal) (ix2 p q) := by
  show (V m c main_v26 : S1x128.Idx → EReal) (((cfg0.win 10).blk t).view.emb (ix2 p q)) = _
  refine congrArg (V m c main_v26 : S1x128.Idx → EReal) (funext fun a => Fin.ext ?_)
  obtain ⟨f0, f1⟩ := (idx_fixed t).2.2.2.2.2.2.2.1
  match a with
  | ⟨0, _⟩ => show win0_10.index t (0 : Fin 2) * 1 + 1 * p.val = p.val; omega
  | ⟨1, _⟩ => show win0_10.index t (1 : Fin 2) * 128 + 1 * q.val = q.val; omega

/-- The third weight matrix, whole at every point. -/
theorem blk_w3 (c : Dev nD) (t : Fin cfg0.N) (p : Fin 128) (q : Fin 64) :
    iblk m c 11 t (ix2 p q) = (V m c main_v24 : S128x64.Idx → EReal) (ix2 p q) := by
  show (V m c main_v24 : S128x64.Idx → EReal) (((cfg0.win 11).blk t).view.emb (ix2 p q)) = _
  refine congrArg (V m c main_v24 : S128x64.Idx → EReal) (funext fun a => Fin.ext ?_)
  obtain ⟨f0, f1⟩ := (idx_fixed t).2.2.2.2.2.2.2.2.1
  match a with
  | ⟨0, _⟩ => show win0_11.index t (0 : Fin 2) * 128 + 1 * p.val = p.val; omega
  | ⟨1, _⟩ => show win0_11.index t (1 : Fin 2) * 64 + 1 * q.val = q.val; omega

/-- The third bias row, whole at every point. -/
theorem blk_b3 (c : Dev nD) (t : Fin cfg0.N) (p : Fin 1) (q : Fin 64) :
    iblk m c 12 t (ix2 p q) = (V m c main_v27 : S1x64.Idx → EReal) (ix2 p q) := by
  show (V m c main_v27 : S1x64.Idx → EReal) (((cfg0.win 12).blk t).view.emb (ix2 p q)) = _
  refine congrArg (V m c main_v27 : S1x64.Idx → EReal) (funext fun a => Fin.ext ?_)
  obtain ⟨f0, f1⟩ := (idx_fixed t).2.2.2.2.2.2.2.2.2
  match a with
  | ⟨0, _⟩ => show win0_12.index t (0 : Fin 2) * 1 + 1 * p.val = p.val; omega
  | ⟨1, _⟩ => show win0_12.index t (1 : Fin 2) * 64 + 1 * q.val = q.val; omega

/-- Row r of the attention block at point t sits at row 4000·t + r of the attention array. -/
theorem emb_attn (t : Fin cfg0.N) (r : Fin 4000) (u : Fin 1) :
    ((cfg0.win 13).blk t).view.emb (ix2 r u) = ix2 (edgeOf t r) u := by
  funext a; apply Fin.ext
  obtain ⟨-, -, -, -, -, -, f0, f1, -⟩ := idx_moving t
  match a with
  | ⟨0, _⟩ => show win0_13.index t (0 : Fin 2) * 4000 + 1 * r.val = t.val * 4000 + r.val; omega
  | ⟨1, _⟩ => show win0_13.index t (1 : Fin 2) * 1 + 1 * u.val = u.val; omega

/-- Row r of the output block at point t sits at row 4000·t + r of the output array. -/
theorem emb_out (t : Fin cfg0.N) (r : Fin 4000) (q : Fin 64) :
    ((cfg0.win 14).blk t).view.emb (ix2 r q) = ix2 (edgeOf t r) q := by
  funext a; apply Fin.ext
  obtain ⟨-, -, -, -, -, -, -, -, f0, f1⟩ := idx_moving t
  match a with
  | ⟨0, _⟩ => show win0_14.index t (0 : Fin 2) * 4000 + 1 * r.val = t.val * 4000 + r.val; omega
  | ⟨1, _⟩ => show win0_14.index t (1 : Fin 2) * 64 + 1 * q.val = q.val; omega

/-- WHAT POINT t WRITES BACK to the attention array is its block of the attention array's function. -/
theorem flushed_attn (c : Dev nD) (t : Fin cfg0.N) :
    (dats m 0 c).flushed 13 t
      = ((cfg0.win 13).blk t).view.read (Elt Ideal) (attnArr (V m c main_v7) (V m c main_v14) (V m c main_cst)) := by
  rw [Cert.KernelIdeal.Value.flushed13]
  unfold out0_13
  rw [View.canon_unit_zero hz]
  simp only [View.ld_unit_zero (S := S4000x80) hz, View.ld_unit_zero (S := S1x80) hz]
  funext y
  obtain ⟨r, u, rfl⟩ : ∃ (r : Fin 4000) (u : Fin 1), y = ix2 r u := ⟨y 0, y 1, eq_ix2 y⟩
  show k0_pay4 (iblk m c 0 t) (iblk m c 1 t) (iblk m c 3 t) (ix2 r u)
    = attnArr (V m c main_v7) (V m c main_v14) (V m c main_cst) (((cfg0.win 13).blk t).view.emb (ix2 r u))
  rw [emb_attn t r u]
  exact point_attn (V m c main_v7) (V m c main_v14) (V m c main_cst) (iblk m c 0 t) (iblk m c 1 t) (iblk m c 3 t) (edgeOf t)
    (blk_dst m c t) (blk_src m c t) (blk_mask m c t 0) r u

/-- WHAT POINT t WRITES BACK to the output array is its block of the output array's function. -/
theorem flushed_out (c : Dev nD) (t : Fin cfg0.N) :
    (dats m 0 c).flushed 14 t
      = ((cfg0.win 14).blk t).view.read (Elt Ideal)
          (outArr (V m c main_v7) (V m c main_v14) (V m c main_v16) (V m c main_cst) (V m c main_v18) (V m c main_v20)
            (V m c main_v21) (V m c main_v22) (V m c main_v25) (V m c main_v23) (V m c main_v26) (V m c main_v24)
            (V m c main_v27)) := by
  rw [Cert.KernelIdeal.Value.flushed14]
  unfold out0_14
  rw [View.canon_unit_zero hz]
  simp only [View.ld_unit_zero (S := S4000x80) hz, View.ld_unit_zero (S := S4000x1) hz, View.ld_unit_zero (S := S1x80) hz,
    View.ld_unit_zero (S := S80x128) hz, View.ld_unit_zero (S := S1x128) hz, View.ld_unit_zero (S := S128x128) hz,
    View.ld_unit_zero (S := S128x64) hz, View.ld_unit_zero (S := S1x64) hz]
  funext y
  obtain ⟨r, q, rfl⟩ : ∃ (r : Fin 4000) (q : Fin 64), y = ix2 r q := ⟨y 0, y 1, eq_ix2 y⟩
  show k0_pay1 (k0_pay5 (iblk m c 0 t) (iblk m c 1 t) (iblk m c 2 t) (iblk m c 3 t) (iblk m c 4 t) (iblk m c 5 t)
        (iblk m c 6 t) (iblk m c 7 t)) (iblk m c 8 t) (iblk m c 9 t) (iblk m c 10 t) (iblk m c 11 t) (iblk m c 12 t) (ix2 r q)
    = outArr (V m c main_v7) (V m c main_v14) (V m c main_v16) (V m c main_cst) (V m c main_v18) (V m c main_v20)
        (V m c main_v21) (V m c main_v22) (V m c main_v25) (V m c main_v23) (V m c main_v26) (V m c main_v24)
        (V m c main_v27) (((cfg0.win 14).blk t).view.emb (ix2 r q))
  rw [emb_out t r q]
  exact point_out (V m c main_v7) (V m c main_v14) (V m c main_v16) (V m c main_cst) (V m c main_v18) (V m c main_v20)
    (V m c main_v21) (V m c main_v22) (V m c main_v25) (V m c main_v23) (V m c main_v26) (V m c main_v24) (V m c main_v27)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (edgeOf t)
    (blk_dst m c t) (blk_src m c t) (blk_dist m c t) (blk_mask m c t 0) (blk_wd m c t) (blk_ws m c t) (blk_wx m c t 0)
    (blk_wa m c t 0) (blk_b1 m c t 0) (blk_w2 m c t) (blk_b2 m c t 0) (blk_w3 m c t) (blk_b3 m c t 0) r q

/-- An index of the attention array is in point t's block iff each coordinate is in the block's range on its axis. -/
theorem mem_blk_attn (t : Fin cfg0.N) (i : S1600000x1.Idx) :
    i ∈ ((cfg0.win 13).blk t).view.set ↔ ∀ a : Fin 2, win0_13.index t a * S4000x1.size a ≤ (i a).val
      ∧ (i a).val < win0_13.index t a * S4000x1.size a + S4000x1.size a := by
  show i ∈ ((View.whole main_v28_0).slice (win0_13.rect t)).set ↔ _
  rw [View.set_slice_whole, Rect.mem_set_unit]
  exact Iff.rfl

/-- The same for the output array. -/
theorem mem_blk_out (t : Fin cfg0.N) (i : S1600000x64.Idx) :
    i ∈ ((cfg0.win 14).blk t).view.set ↔ ∀ a : Fin 2, win0_14.index t a * S4000x64.size a ≤ (i a).val
      ∧ (i a).val < win0_14.index t a * S4000x64.size a + S4000x64.size a := by
  show i ∈ ((View.whole main_v28_1).slice (win0_14.rect t)).set ↔ _
  rw [View.set_slice_whole, Rect.mem_set_unit]
  exact Iff.rfl

/-- Row i of the attention array is in the block of point i / 4000. -/
theorem cover_attn (i : S1600000x1.Idx) :
    ∃ t : Fin cfg0.N, (cfg0.win 13).flush t = true ∧ i ∈ ((cfg0.win 13).blk t).view.set := by
  have hi0 : (i 0).val < 1600000 := (i 0).isLt
  have hi1 : (i 1).val < 1 := (i 1).isLt
  have hN : cfg0.N = 400 := N_0
  obtain ⟨tt, htt⟩ : ∃ tt : Fin cfg0.N, tt.val = (i 0).val / 4000 := ⟨⟨(i 0).val / 4000, by omega⟩, rfl⟩
  refine ⟨tt, flush0_13 _, ?_⟩
  rw [mem_blk_attn]
  obtain ⟨-, -, -, -, -, -, f0, f1, -⟩ := idx_moving tt
  intro a
  match a with
  | ⟨0, _⟩ =>
    show win0_13.index tt (0 : Fin 2) * 4000 ≤ (i 0).val ∧ (i 0).val < win0_13.index tt (0 : Fin 2) * 4000 + 4000
    rw [f0, htt]; omega
  | ⟨1, _⟩ =>
    show win0_13.index tt (1 : Fin 2) * 1 ≤ (i 1).val ∧ (i 1).val < win0_13.index tt (1 : Fin 2) * 1 + 1
    rw [f1]; omega

/-- Row i of the output array is in the block of point i / 4000. -/
theorem cover_out (i : S1600000x64.Idx) :
    ∃ t : Fin cfg0.N, (cfg0.win 14).flush t = true ∧ i ∈ ((cfg0.win 14).blk t).view.set := by
  have hi0 : (i 0).val < 1600000 := (i 0).isLt
  have hi1 : (i 1).val < 64 := (i 1).isLt
  have hN : cfg0.N = 400 := N_0
  obtain ⟨tt, htt⟩ : ∃ tt : Fin cfg0.N, tt.val = (i 0).val / 4000 := ⟨⟨(i 0).val / 4000, by omega⟩, rfl⟩
  refine ⟨tt, flush0_14 _, ?_⟩
  rw [mem_blk_out]
  obtain ⟨-, -, -, -, -, -, -, -, f0, f1⟩ := idx_moving tt
  intro a
  match a with
  | ⟨0, _⟩ =>
    show win0_14.index tt (0 : Fin 2) * 4000 ≤ (i 0).val ∧ (i 0).val < win0_14.index tt (0 : Fin 2) * 4000 + 4000
    rw [f0, htt]; omega
  | ⟨1, _⟩ =>
    show win0_14.index tt (1 : Fin 2) * 64 ≤ (i 1).val ∧ (i 1).val < win0_14.index tt (1 : Fin 2) * 64 + 64
    rw [f1]; omega

/-- THE ATTENTION ARRAY after the run. -/
theorem final_attn (c : Dev nD) :
    (dats m 0 c).arrAt 13 cfg0.N = attnArr (V m c main_v7) (V m c main_v14) (V m c main_cst) :=
  (dats m 0 c).arrAt_eq_of_cover 13 _ (fun t _ => flushed_attn m c t) cover_attn

/-- THE OUTPUT ARRAY after the run. -/
theorem final_out (c : Dev nD) :
    (dats m 0 c).arrAt 14 cfg0.N
      = outArr (V m c main_v7) (V m c main_v14) (V m c main_v16) (V m c main_cst) (V m c main_v18) (V m c main_v20)
          (V m c main_v21) (V m c main_v22) (V m c main_v25) (V m c main_v23) (V m c main_v26) (V m c main_v24)
          (V m c main_v27) :=
  (dats m 0 c).arrAt_eq_of_cover 14 _ (fun t _ => flushed_out m c t) cover_out

/-- After the run the array of the source rows' h part, which the host wrote before the launch, is as the launch found it. -/
theorem kept_srch (r : PUnit × MemSt nD τ sig (Elt Ideal)) (h : Pipeline.FramePost cfgs (dats m) 0 (V m) r) (c : Dev nD) :
    r.2.mem ((c : Thread nD τ).loc main_v15) = V m c main_v15 :=
  (h c).2 main_v15 (Pipeline.mem_restRefs_of main_v15 (by decide) (by decide))

end Cert.EdgeMlp.KernelBlocks

end
-- ==== Proof.LibGatherRows.lean ====
/-
  General lemma: a gather of whole rows of a matrix, read at an entry.

  `x[idx]` of a matrix `x : [N, C]` at a column `idx : [R, 1]` of integers lowers to a gather with offset_dims [1],
  collapsed_slice_dims [0], start_index_map [0], index_vector_dim 1 and slice_sizes [1, C]. Entry (e, k) of the result is
  `x` at row `idx[e, 0]` — read as a signed integer and clamped into [0, N − 1], as every start index of a gather is — and
  column `k`.
-/
import Idealize.ShloMosaic.PureOps.ShapeOps
import Idealize.ShloMosaic.Lib.ValueIdx

namespace Cert.Lib.GatherRows

open Idealize.ShloMosaic Idealize.ShloMosaic.ValueIdx

variable {α : Type}

/-- Those dimension numbers for an operand [N, C], start indices [R, 1] and a result [R, C]. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: the word read signed, clamped into [0, N − 1]. -/
def rowOf (N : Nat) (hN : 0 < N) {w : Nat} (b : BitVec w) : Fin N := ⟨min b.toInt.toNat (N - 1), by omega⟩

/-- On the row axis the operand index is the clamped start index. -/
theorem operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (e : Fin R) (k : Fin C) :
    ((rowDims N C R wf).operandIdx (ix2 e k) idx (0 : Fin 2)).val = (rowOf N hN (idx (ix2 e (0 : Fin 1)))).val := by
  show (rowDims N C R wf).start (ix2 e k) idx 0 + (rowDims N C R wf).batchCoord (ix2 e k) 0
    + (rowDims N C R wf).offCoord (ix2 e k) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowDims N C R wf).startIndexMap from List.mem_singleton.mpr rfl)]
  have hsi : (rowDims N C R wf).siIdx (ix2 e k) ⟨List.idxOf (0 : Fin 2) (rowDims N C R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand index is the result's column. -/
theorem operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (k : Fin C) :
    ((rowDims N C R wf).operandIdx (ix2 e k) idx (1 : Fin 2)).val = k.val := by
  show (rowDims N C R wf).start (ix2 e k) idx 1 + (rowDims N C R wf).batchCoord (ix2 e k) 1
    + (rowDims N C R wf).offCoord (ix2 e k) 1 = _
  rw [GatherDims.batchCoord_eq_zero _ _ _ List.not_mem_nil, Nat.add_zero]
  unfold GatherDims.start
  rw [dif_neg (show ¬ ((1 : Fin 2) ∈ (rowDims N C R wf).startIndexMap) from
    fun h => Nat.one_ne_zero (congrArg Fin.val (List.mem_singleton.mp h))), Nat.zero_add]
  rfl

/-- THE GATHER READ AT (e, k): the operand at the row the start index `idx[e, 0]` names, column `k`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowDims N C R wf) x idx (ix2 e k) = x (ix2 (rowOf N hN (idx (ix2 e (0 : Fin 1)))) k) := by
  unfold Host.gather
  refine congrArg x (funext fun a => Fin.ext ?_)
  match a with
  | ⟨0, _⟩ => exact operandIdx_row hN wf idx e k
  | ⟨1, _⟩ => exact operandIdx_col wf idx e k

end Cert.Lib.GatherRows
-- ==== Proof.Staged.lean ====
/-
  The arrays the kernel's launch stages, read entry by entry in terms of the program's arguments.

  Before the launch the host builds the table [features | h], gathers its rows at the destination and at the source indices
  (a negative index first has the table's height added; the gather then clamps it into the table), makes a column of the
  distances, cuts the first weight matrix into its rows 0–79, 80–159, 160 and 161, and turns the three biases into rows.
  Changes of float format are the identity on the extended reals.
-/
import proofs.«177085_j24137716203976_2_alg».proof.Proof.Gen.KernelIdeal.Frame
import proofs.«177085_j24137716203976_2_alg».proof.Proof.LibGatherRows
import proofs.«177085_j24137716203976_2_alg».proof.Proof.EdgeRows
import Idealize.ShloMosaic.Lib.StableHlo.Run
import Idealize.ShloMosaic.PureOps.Ideal
import Idealize.ShloMosaic.Lib.ValueIdx
import Idealize.ShloMosaic.Lib.ValueLayout
import Idealize.ShloMosaic.Lib.Pipeline.Value

set_option pp.maxSteps 8000
set_option pp.deepTerms false

noncomputable section

namespace Cert.EdgeMlp.Staged

open Idealize.ShloMosaic Idealize.ShloMosaic.TcCoe Idealize.SL.Sem Cert.KernelIdeal Cert.KernelIdeal.Gen
open Idealize.ShloMosaic.StableHlo Idealize.ShloMosaic.ValueIdx Cert.Lib.GatherRows Cert.EdgeMlp.Rows

variable (m : (ℓ : Loc nD τ sig) → Buf (Elt Ideal) ℓ) (c : Dev nD)

/-- The start indices of a gather, as jnp prepares them from an index array: a negative index has 100000 added, and the
    result is made a column. -/
def startIdx (x : IVec S1600000 32) : IVec S1600000x1 32 :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 100000#32))) x)

/-- The table row edge e reads through the index array x. -/
def rowAt (x : IVec S1600000 32) (e : Fin 1600000) : Fin 100000 :=
  rowOf 100000 (by decide) (startIdx x (ix2 e (0 : Fin 1)))

/-- The table [features | h] read at (n, k). -/
theorem table_apply (nf : S100000x16.Idx → EReal) (nh : S100000x64.Idx → EReal) (n : Fin 100000) (k : Fin 80) :
    concatenate S100000x80 1 [⟨S100000x16, nf⟩, ⟨S100000x64, nh⟩] concatenates_S100000x16_S100000x64_S100000x80_d1 (ix2 n k)
      = catRow nf nh n k := by
  unfold catRow
  split
  · next h =>
    exact concatenate_pair_apply_left 1 nf nh _ (ix2 n k) rfl (ix2 n ⟨k.val, h⟩) (fun b => by
      match b with
      | ⟨0, _⟩ => rfl
      | ⟨1, _⟩ => rfl)
  · next h =>
    exact concatenate_pair_apply_right 1 nf nh _ (ix2 n k) rfl rfl (ix2 n ⟨k.val - 16, by omega⟩) (fun b hb => by
      match b with
      | ⟨0, _⟩ => rfl
      | ⟨1, _⟩ => exact absurd rfl hb) (by show k.val - 16 + 16 = k.val; omega)

/-- A gathered row of the table: entry (e, k) is entry k of the row the index array names for edge e. -/
theorem gathered_apply (nf : S100000x16.Idx → EReal) (nh : S100000x64.Idx → EReal) (x : IVec S1600000 32)
    (e : Fin 1600000) (k : Fin 80) :
    Host.gather gather_S100000x80_S1600000x1_S1600000x80_1_0_n_n_0_1_180
        (concatenate S100000x80 1 [⟨S100000x16, nf⟩, ⟨S100000x64, nh⟩] concatenates_S100000x16_S100000x64_S100000x80_d1)
        (startIdx x) (ix2 e k)
      = catRow nf nh (rowAt x e) k :=
  (gather_rows_apply (N := 100000) (C := 80) (R := 1600000) (by decide)
    gather_S100000x80_S1600000x1_S1600000x80_1_0_n_n_0_1_180.wf _ (startIdx x) e k).trans (table_apply nf nh _ k)

/-- The staged destination rows as the host computes them. -/
def dstTerm : S1600000x80.Idx → EReal :=
  Host.gather gather_S100000x80_S1600000x1_S1600000x80_1_0_n_n_0_1_180
    (concatenate S100000x80 1 [⟨S100000x16, m (c, Proc.tc.devRef main_arg0)⟩, ⟨S100000x64, m (c, Proc.tc.devRef main_arg1)⟩]
      concatenates_S100000x16_S100000x64_S100000x80_d1)
    (startIdx (m (c, Proc.tc.devRef main_arg4)))

/-- The staged source rows as the host computes them. -/
def srcTerm : S1600000x80.Idx → EReal :=
  Host.gather gather_S100000x80_S1600000x1_S1600000x80_1_0_n_n_0_1_180
    (concatenate S100000x80 1 [⟨S100000x16, m (c, Proc.tc.devRef main_arg0)⟩, ⟨S100000x64, m (c, Proc.tc.devRef main_arg1)⟩]
      concatenates_S100000x16_S100000x64_S100000x80_d1)
    (startIdx (m (c, Proc.tc.devRef main_arg3)))

set_option maxHeartbeats 4000000 in
theorem v7_eq : (V m c main_v7 : S1600000x80.Idx → EReal) = dstTerm m c := by
  suffices h : ∀ X : S1600000x80.Idx → EReal, dstTerm m c = X → (V m c main_v7 : S1600000x80.Idx → EReal) = X from h _ rfl
  intro X hX
  dsimp only [Gen.V, Gen.hostOps0]; after_results; exact hX

set_option maxHeartbeats 4000000 in
theorem v14_eq : (V m c main_v14 : S1600000x80.Idx → EReal) = srcTerm m c := by
  suffices h : ∀ X : S1600000x80.Idx → EReal, srcTerm m c = X → (V m c main_v14 : S1600000x80.Idx → EReal) = X from h _ rfl
  intro X hX
  dsimp only [Gen.V, Gen.hostOps0]; after_results; exact hX

set_option maxHeartbeats 4000000 in
theorem v15_eq : (V m c main_v15 : S1600000x64.Idx → EReal)
    = extractStridedSlice S1600000x64 ![0, 16] (srcTerm m c) slices_S1600000x80_S1600000x64_0_16 := by
  suffices h : ∀ X : S1600000x64.Idx → EReal,
      extractStridedSlice S1600000x64 ![0, 16] (srcTerm m c) slices_S1600000x80_S1600000x64_0_16 = X →
        (V m c main_v15 : S1600000x64.Idx → EReal) = X from h _ rfl
  intro X hX
  dsimp only [Gen.V, Gen.hostOps0]; after_results; exact hX

set_option maxHeartbeats 4000000 in
theorem v16_eq : (V m c main_v16 : S1600000x1.Idx → EReal)
    = broadcastInDim S1600000x1 ![0] bcast_S1600000_S1600000x1_0 (m (c, Proc.tc.devRef main_arg2)) := by
  dsimp only [Gen.V, Gen.hostOps0]; after_results <;> rfl

set_option maxHeartbeats 4000000 in
theorem cst_eq : (V m c main_cst : S1x80.Idx → EReal) = fun i => Ideal.ofBits .f32 (lit0 (S1x80.rowMajor i)) := by
  dsimp only [Gen.V, Gen.hostOps0]; after_results <;> rfl

set_option maxHeartbeats 4000000 in
theorem v18_eq : (V m c main_v18 : S80x128.Idx → EReal)
    = extractStridedSlice S80x128 ![0, 0] (m (c, Proc.tc.devRef main_arg5)) slices_S162x128_S80x128_0_0 := by
  dsimp only [Gen.V, Gen.hostOps0]; after_results <;> rfl

set_option maxHeartbeats 4000000 in
theorem v20_eq : (V m c main_v20 : S80x128.Idx → EReal)
    = extractStridedSlice S80x128 ![80, 0] (m (c, Proc.tc.devRef main_arg5)) slices_S162x128_S80x128_80_0 := by
  dsimp only [Gen.V, Gen.hostOps0]; after_results <;> rfl

set_option maxHeartbeats 4000000 in
theorem v21_eq : (V m c main_v21 : S1x128.Idx → EReal)
    = extractStridedSlice S1x128 ![160, 0] (m (c, Proc.tc.devRef main_arg5)) slices_S162x128_S1x128_160_0 := by
  dsimp only [Gen.V, Gen.hostOps0]; after_results <;> rfl

set_option maxHeartbeats 4000000 in
theorem v22_eq : (V m c main_v22 : S1x128.Idx → EReal)
    = extractStridedSlice S1x128 ![161, 0] (m (c, Proc.tc.devRef main_arg5)) slices_S162x128_S1x128_161_0 := by
  dsimp only [Gen.V, Gen.hostOps0]; after_results <;> rfl

set_option maxHeartbeats 4000000 in
theorem v23_eq : (V m c main_v23 : S128x128.Idx → EReal) = m (c, Proc.tc.devRef main_arg7) := by
  dsimp only [Gen.V, Gen.hostOps0]; after_results <;> rfl

set_option maxHeartbeats 4000000 in
theorem v24_eq : (V m c main_v24 : S128x64.Idx → EReal) = m (c, Proc.tc.devRef main_arg9) := by
  dsimp only [Gen.V, Gen.hostOps0]; after_results <;> rfl

set_option maxHeartbeats 4000000 in
theorem v25_eq : (V m c main_v25 : S1x128.Idx → EReal)
    = shapeCast S1x128 (m (c, Proc.tc.devRef main_arg6)) shapeCasts_S128_S1x128 := by
  dsimp only [Gen.V, Gen.hostOps0]; after_results <;> rfl

set_option maxHeartbeats 4000000 in
theorem v26_eq : (V m c main_v26 : S1x128.Idx → EReal)
    = shapeCast S1x128 (m (c, Proc.tc.devRef main_arg8)) shapeCasts_S128_S1x128 := by
  dsimp only [Gen.V, Gen.hostOps0]; after_results <;> rfl

set_option maxHeartbeats 4000000 in
theorem v27_eq : (V m c main_v27 : S1x64.Idx → EReal)
    = shapeCast S1x64 (m (c, Proc.tc.devRef main_arg10)) shapeCasts_S64_S1x64 := by
  dsimp only [Gen.V, Gen.hostOps0]; after_results <;> rfl

/-! ## The staged arrays read at an entry -/

/-- The destination rows, as staged. -/
theorem dst_apply (e : Fin 1600000) (k : Fin 80) :
    (V m c main_v7 : S1600000x80.Idx → EReal) (ix2 e k)
      = catRow (m (c, Proc.tc.devRef main_arg0)) (m (c, Proc.tc.devRef main_arg1)) (rowAt (m (c, Proc.tc.devRef main_arg4)) e) k := by
  rw [v7_eq]; exact gathered_apply _ _ _ e k

/-- The source rows, as staged. -/
theorem src_apply (e : Fin 1600000) (k : Fin 80) :
    (V m c main_v14 : S1600000x80.Idx → EReal) (ix2 e k)
      = catRow (m (c, Proc.tc.devRef main_arg0)) (m (c, Proc.tc.devRef main_arg1)) (rowAt (m (c, Proc.tc.devRef main_arg3)) e) k := by
  rw [v14_eq]; exact gathered_apply _ _ _ e k

/-- The h part of the source rows (the second result): columns 16–79 of the gathered source rows. -/
theorem srch_apply (e : Fin 1600000) (j : Fin 64) :
    (V m c main_v15 : S1600000x64.Idx → EReal) (ix2 e j)
      = m (c, Proc.tc.devRef main_arg1) (ix2 (rowAt (m (c, Proc.tc.devRef main_arg3)) e) j) := by
  rw [v15_eq]
  refine (slice2_axis1_apply 16 (srcTerm m c) _ e j (⟨16 + j.val, by omega⟩ : Fin 80) rfl).trans ?_
  unfold srcTerm
  refine (gathered_apply _ _ _ e _).trans ?_
  exact catRow_h _ _ _ j

/-- The distances as a column. -/
theorem dist_apply (e : Fin 1600000) (u : Fin 1) :
    (V m c main_v16 : S1600000x1.Idx → EReal) (ix2 e u) = m (c, Proc.tc.devRef main_arg2) (ix1 e) := by
  rw [v16_eq]
  exact broadcastInDim_apply _ bcast_S1600000_S1600000x1_0 _ (ix2 e u) (ix1 e) (fun a => match a with
    | ⟨0, _⟩ => by show e.val = if (1600000 : Nat) = 1 then 0 else e.val; rw [if_neg (by decide)])

theorem lit0_feat : ∀ k : Fin 80, k.val < 16 → lit0 k = 0x00000000#32 := by decide
theorem lit0_h : ∀ k : Fin 80, 16 ≤ k.val → lit0 k = 0x3F800000#32 := by decide

/-- The mask's entry k is the word at position k of its table. -/
theorem mask_apply (k : Fin 80) :
    (V m c main_cst : S1x80.Idx → EReal) (ix2 (0 : Fin 1) k) = Ideal.ofBits .f32 (lit0 k) := by
  rw [cst_eq]
  have hk : S1x80.rowMajor (ix2 (0 : Fin 1) k) = k :=
    Fin.ext (by rw [Shape.rowMajor_val_two]; show 0 * 80 + k.val = k.val; omega)
  show Ideal.ofBits .f32 (lit0 (S1x80.rowMajor (ix2 (0 : Fin 1) k))) = _
  rw [hk]

/-- The mask is 0 on the 16 feature columns … -/
theorem mask_feat (k : Fin 80) (h : k.val < 16) : (V m c main_cst : S1x80.Idx → EReal) (ix2 (0 : Fin 1) k) = (0 : EReal) := by
  rw [mask_apply, lit0_feat k h, Ideal.ofBits_zero_f32]

/-- … and 1 on the 64 columns of h. -/
theorem mask_h (k : Fin 80) (h : 16 ≤ k.val) : (V m c main_cst : S1x80.Idx → EReal) (ix2 (0 : Fin 1) k) = (1 : EReal) := by
  rw [mask_apply, lit0_h k h, Cert.EdgeMlp.Algebra.ofBits_one]

/-- Rows 0–79 of the first weight matrix. -/
theorem wd_apply (k : Fin 80) (j : Fin 128) :
    (V m c main_v18 : S80x128.Idx → EReal) (ix2 k j) = m (c, Proc.tc.devRef main_arg5) (ix2 (⟨k.val, by omega⟩ : Fin 162) j) := by
  rw [v18_eq]; exact slice2_axis0_apply 0 _ _ k j (⟨k.val, by omega⟩ : Fin 162) (by simp)

/-- Rows 80–159 of the first weight matrix. -/
theorem ws_apply (k : Fin 80) (j : Fin 128) :
    (V m c main_v20 : S80x128.Idx → EReal) (ix2 k j) = m (c, Proc.tc.devRef main_arg5) (ix2 (⟨80 + k.val, by omega⟩ : Fin 162) j) := by
  rw [v20_eq]; exact slice2_axis0_apply 80 _ _ k j (⟨80 + k.val, by omega⟩ : Fin 162) rfl

/-- Row 160 of the first weight matrix. -/
theorem wx_apply (u : Fin 1) (j : Fin 128) :
    (V m c main_v21 : S1x128.Idx → EReal) (ix2 u j) = m (c, Proc.tc.devRef main_arg5) (ix2 (⟨160, by omega⟩ : Fin 162) j) := by
  rw [v21_eq]; exact slice2_axis0_apply 160 _ _ u j (⟨160, by omega⟩ : Fin 162) (by have := u.isLt; show 160 = 160 + u.val; omega)

/-- Row 161 of the first weight matrix. -/
theorem wa_apply (u : Fin 1) (j : Fin 128) :
    (V m c main_v22 : S1x128.Idx → EReal) (ix2 u j) = m (c, Proc.tc.devRef main_arg5) (ix2 (⟨161, by omega⟩ : Fin 162) j) := by
  rw [v22_eq]; exact slice2_axis0_apply 161 _ _ u j (⟨161, by omega⟩ : Fin 162) (by have := u.isLt; show 161 = 161 + u.val; omega)

/-- The first bias as a row. -/
theorem b1_apply (u : Fin 1) (j : Fin 128) :
    (V m c main_v25 : S1x128.Idx → EReal) (ix2 u j) = m (c, Proc.tc.devRef main_arg6) (ix1 j) := by
  rw [v25_eq]; exact shapeCast_a_1a_apply _ _ u j

/-- The second bias as a row. -/
theorem b2_apply (u : Fin 1) (j : Fin 128) :
    (V m c main_v26 : S1x128.Idx → EReal) (ix2 u j) = m (c, Proc.tc.devRef main_arg8) (ix1 j) := by
  rw [v26_eq]; exact shapeCast_a_1a_apply _ _ u j

/-- The third bias as a row. -/
theorem b3_apply (u : Fin 1) (j : Fin 64) :
    (V m c main_v27 : S1x64.Idx → EReal) (ix2 u j) = m (c, Proc.tc.devRef main_arg10) (ix1 j) := by
  rw [v27_eq]; exact shapeCast_a_1a_apply _ _ u j

end Cert.EdgeMlp.Staged

end
-- ==== Proof.RefRows.lean ====
/-
  The reference, read entry by entry on the extended reals.

  For edge e the reference gathers the feature and h rows of the destination and of the source node (a negative index first has
  the table's height added; the gather clamps it), takes the logistic function of the inner product of the two h rows divided
  by the square root of 64 as the attention weight, lays [dst features | dst h | src features | src h | distance | attention]
  side by side as the 162 inputs of the first layer, and applies the three layers.
-/
import proofs.«177085_j24137716203976_2_alg».proof.Proof.Gen.ReferenceIdeal.Read
import proofs.«177085_j24137716203976_2_alg».proof.Proof.LibGatherRows
import proofs.«177085_j24137716203976_2_alg».proof.Proof.EdgeRows
import Idealize.ShloMosaic.Lib.ValueIdx
import Idealize.ShloMosaic.Lib.Pipeline.Value

set_option pp.maxSteps 8000
set_option pp.deepTerms false

noncomputable section

namespace Cert.EdgeMlp.RefRows

open Idealize.ShloMosaic Idealize.ShloMosaic.ValueIdx Cert.ReferenceIdeal Cert.ReferenceIdeal.Read
open Cert.Lib.GatherRows Cert.EdgeMlp.Rows

/-- The table row edge e reads through the index array x. -/
def rowAt (x : (⟨S1600000, .i32⟩ : BufTy).Contents (Elt Ideal)) (e : Fin 1600000) : Fin 100000 :=
  rowOf 100000 (by decide) (val_main_v5 (F := Ideal) x (ix2 e (0 : Fin 1)))

/-- The gathered destination features. -/
theorem v6_at (x0 : (⟨S100000x16, .f32⟩ : BufTy).Contents (Elt Ideal)) (x4 : (⟨S1600000, .i32⟩ : BufTy).Contents (Elt Ideal))
    (e : Fin 1600000) (k : Fin 16) : val_main_v6 (F := Ideal) x0 x4 (ix2 e k) = x0 (ix2 (rowAt x4 e) k) :=
  gather_rows_apply (N := 100000) (C := 16) (R := 1600000) (by decide)
    gather_S100000x16_S1600000x1_S1600000x16_1_0_n_n_0_1_116.wf x0 (val_main_v5 (F := Ideal) x4) e k

/-- The gathered destination h. -/
theorem v13_at (x1 : (⟨S100000x64, .f32⟩ : BufTy).Contents (Elt Ideal)) (x4 : (⟨S1600000, .i32⟩ : BufTy).Contents (Elt Ideal))
    (e : Fin 1600000) (j : Fin 64) : val_main_v13 (F := Ideal) x1 x4 (ix2 e j) = x1 (ix2 (rowAt x4 e) j) :=
  gather_rows_apply (N := 100000) (C := 64) (R := 1600000) (by decide)
    gather_S100000x64_S1600000x1_S1600000x64_1_0_n_n_0_1_164.wf x1 (val_main_v12 (F := Ideal) x4) e j

/-- The gathered source features. -/
theorem v20_at (x0 : (⟨S100000x16, .f32⟩ : BufTy).Contents (Elt Ideal)) (x3 : (⟨S1600000, .i32⟩ : BufTy).Contents (Elt Ideal))
    (e : Fin 1600000) (k : Fin 16) : val_main_v20 (F := Ideal) x0 x3 (ix2 e k) = x0 (ix2 (rowAt x3 e) k) :=
  gather_rows_apply (N := 100000) (C := 16) (R := 1600000) (by decide)
    gather_S100000x16_S1600000x1_S1600000x16_1_0_n_n_0_1_116.wf x0 (val_main_v19 (F := Ideal) x3) e k

/-- The gathered source h (the second result). -/
theorem v27_at (x1 : (⟨S100000x64, .f32⟩ : BufTy).Contents (Elt Ideal)) (x3 : (⟨S1600000, .i32⟩ : BufTy).Contents (Elt Ideal))
    (e : Fin 1600000) (j : Fin 64) : val_main_v27 (F := Ideal) x1 x3 (ix2 e j) = x1 (ix2 (rowAt x3 e) j) :=
  gather_rows_apply (N := 100000) (C := 64) (R := 1600000) (by decide)
    gather_S100000x64_S1600000x1_S1600000x64_1_0_n_n_0_1_164.wf x1 (val_main_v26 (F := Ideal) x3) e j

/-- The attention weight of edge e (the first result). -/
theorem v39_at (x1 : (⟨S100000x64, .f32⟩ : BufTy).Contents (Elt Ideal)) (x3 x4 : (⟨S1600000, .i32⟩ : BufTy).Contents (Elt Ideal))
    (e : Fin 1600000) (u : Fin 1) :
    val_main_v39 (F := Ideal) x1 x3 x4 (ix2 e u)
      = attnPlain (fun j => x1 (ix2 (rowAt x4 e) j)) (fun j => x1 (ix2 (rowAt x3 e) j)) := by
  have hs : ∀ k : Fin 64, val_main_v29 (F := Ideal) x1 x3 x4 (idx_main_v30 (idx_main_v31 (ix2 e u)) k)
      = x1 (ix2 (rowAt x4 e) k) * x1 (ix2 (rowAt x3 e) k) := fun k => by
    have hi : idx_main_v30 (idx_main_v31 (ix2 e u)) k = ix2 e k :=
      funext fun a => Fin.ext (by match a with | ⟨0, _⟩ => rfl | ⟨1, _⟩ => rfl)
    rw [hi, val_main_v29_apply, v13_at, v27_at]; rfl
  rw [val_main_v39_apply, val_main_v38_apply, val_main_cst_9_apply, val_main_v37_apply, val_main_v36_apply,
    val_main_cst_8_apply, val_main_v35_apply, val_main_v34_apply, val_main_v33_apply, val_main_v31_apply,
    val_main_v30_apply, val_main_cst_7_apply, val_main_v32_apply, val_main_v28_apply, val_main_cst_apply]
  simp only [hs]
  rfl

/-- The first layer's 162 inputs for edge e. -/
theorem v41_at (x0 : (⟨S100000x16, .f32⟩ : BufTy).Contents (Elt Ideal)) (x1 : (⟨S100000x64, .f32⟩ : BufTy).Contents (Elt Ideal)) (x2 : (⟨S1600000, .f32⟩ : BufTy).Contents (Elt Ideal)) (x3 x4 : (⟨S1600000, .i32⟩ : BufTy).Contents (Elt Ideal)) (e : Fin 1600000) (k : Fin 162) :
    val_main_v41 (F := Ideal) x0 x1 x2 x3 x4 (ix2 e k)
      = edgeInput (catRow x0 x1 (rowAt x4 e)) (catRow x0 x1 (rowAt x3 e)) (x2 (ix1 e))
          (val_main_v39 (F := Ideal) x1 x3 x4 (ix2 e (0 : Fin 1))) k := by
  unfold val_main_v41 edgeInput
  by_cases h1 : k.val < 16
  · rw [dif_pos (by omega)]
    unfold catRow
    rw [dif_pos h1]
    refine (concatenate_apply_piece 1 _ _ (ix2 e k) 0 (by show (0 : ℕ) < 6; omega) S1600000x16 (val_main_v6 (F := Ideal) x0 x4) rfl rfl 0 rfl
      (ix2 e (⟨k.val, h1⟩ : Fin 16)) (fun b hb => by
        match b with
        | ⟨0, _⟩ => rfl
        | ⟨1, _⟩ => exact absurd rfl hb) (by show 0 + k.val = k.val; omega)).trans ?_
    exact v6_at x0 x4 e _
  by_cases h2 : k.val < 80
  · rw [dif_pos h2]
    unfold catRow
    rw [dif_neg h1]
    refine (concatenate_apply_piece 1 _ _ (ix2 e k) 1 (by show (1 : ℕ) < 6; omega) S1600000x64 (val_main_v13 (F := Ideal) x1 x4) rfl rfl 16 rfl
      (ix2 e (⟨k.val - 16, by omega⟩ : Fin 64)) (fun b hb => by
        match b with
        | ⟨0, _⟩ => rfl
        | ⟨1, _⟩ => exact absurd rfl hb) (by show 16 + (k.val - 16) = k.val; omega)).trans ?_
    exact v13_at x1 x4 e _
  by_cases h3 : k.val < 96
  · rw [dif_neg h2, dif_pos (by omega)]
    unfold catRow
    rw [dif_pos (by show k.val - 80 < 16; omega)]
    refine (concatenate_apply_piece 1 _ _ (ix2 e k) 2 (by show (2 : ℕ) < 6; omega) S1600000x16 (val_main_v20 (F := Ideal) x0 x3) rfl rfl 80 rfl
      (ix2 e (⟨k.val - 80, by omega⟩ : Fin 16)) (fun b hb => by
        match b with
        | ⟨0, _⟩ => rfl
        | ⟨1, _⟩ => exact absurd rfl hb) (by show 80 + (k.val - 80) = k.val; omega)).trans ?_
    exact v20_at x0 x3 e _
  by_cases h4 : k.val < 160
  · rw [dif_neg h2, dif_pos h4]
    unfold catRow
    rw [dif_neg (by show ¬ (k.val - 80 < 16); omega)]
    refine (concatenate_apply_piece 1 _ _ (ix2 e k) 3 (by show (3 : ℕ) < 6; omega) S1600000x64 (val_main_v27 (F := Ideal) x1 x3) rfl rfl 96 rfl
      (ix2 e (⟨k.val - 96, by omega⟩ : Fin 64)) (fun b hb => by
        match b with
        | ⟨0, _⟩ => rfl
        | ⟨1, _⟩ => exact absurd rfl hb) (by show 96 + (k.val - 96) = k.val; omega)).trans ?_
    refine (v27_at x1 x3 e _).trans ?_
    exact congrArg x1 (congrArg (ix2 (rowAt x3 e)) (Fin.ext (by show k.val - 96 = k.val - 80 - 16; omega)))
  by_cases h5 : k.val = 160
  · rw [dif_neg h2, dif_neg h4, if_pos h5]
    refine (concatenate_apply_piece 1 _ _ (ix2 e k) 4 (by show (4 : ℕ) < 6; omega) S1600000x1 (val_main_v40 (F := Ideal) x2) rfl rfl 160 rfl
      (ix2 e (0 : Fin 1)) (fun b hb => by
        match b with
        | ⟨0, _⟩ => rfl
        | ⟨1, _⟩ => exact absurd rfl hb) (by show 160 + 0 = k.val; omega)).trans ?_
    rw [val_main_v40_apply]
    exact congrArg x2 (funext fun a => Fin.ext (by match a with | ⟨0, _⟩ => rfl))
  · rw [dif_neg h2, dif_neg h4, if_neg h5]
    have hk := k.isLt
    exact concatenate_apply_piece 1 _ _ (ix2 e k) 5 (by show (5 : ℕ) < 6; omega) S1600000x1 (val_main_v39 (F := Ideal) x1 x3 x4) rfl rfl 161 rfl
      (ix2 e (0 : Fin 1)) (fun b hb => by
        match b with
        | ⟨0, _⟩ => rfl
        | ⟨1, _⟩ => exact absurd rfl hb) (by show 161 + 0 = k.val; omega)

/-- The first layer before its bias: one sum over the 162 inputs. -/
theorem v42_at (x0 : (⟨S100000x16, .f32⟩ : BufTy).Contents (Elt Ideal)) (x1 : (⟨S100000x64, .f32⟩ : BufTy).Contents (Elt Ideal)) (x2 : (⟨S1600000, .f32⟩ : BufTy).Contents (Elt Ideal)) (x3 x4 : (⟨S1600000, .i32⟩ : BufTy).Contents (Elt Ideal)) (x5 : (⟨S162x128, .f32⟩ : BufTy).Contents (Elt Ideal)) (e : Fin 1600000) (j : Fin 128) :
    val_main_v42 (F := Ideal) x0 x1 x2 x3 x4 x5 (ix2 e j)
      = ∑ k : Fin 162, val_main_v41 (F := Ideal) x0 x1 x2 x3 x4 (ix2 e k) * x5 (ix2 k j) := by
  rw [val_main_v42_apply]
  refine Finset.sum_congr rfl fun k _ => ?_
  have hl : lidx_main_v42 (ix2 e j) k = ix2 e k :=
    funext fun a => Fin.ext (by match a with | ⟨0, _⟩ => rfl | ⟨1, _⟩ => rfl)
  have hr : ridx_main_v42 (ix2 e j) k = ix2 k j :=
    funext fun a => Fin.ext (by match a with | ⟨0, _⟩ => rfl | ⟨1, _⟩ => rfl)
  rw [hl, hr]

/-- After the first bias and the maximum with 0. -/
theorem v46_at (x0 : (⟨S100000x16, .f32⟩ : BufTy).Contents (Elt Ideal)) (x1 : (⟨S100000x64, .f32⟩ : BufTy).Contents (Elt Ideal)) (x2 : (⟨S1600000, .f32⟩ : BufTy).Contents (Elt Ideal)) (x3 x4 : (⟨S1600000, .i32⟩ : BufTy).Contents (Elt Ideal)) (x5 : (⟨S162x128, .f32⟩ : BufTy).Contents (Elt Ideal)) (x6 : (⟨S128, .f32⟩ : BufTy).Contents (Elt Ideal)) (e : Fin 1600000) (k1 : Fin 128) :
    val_main_v46 (F := Ideal) x0 x1 x2 x3 x4 x5 x6 (ix2 e k1)
      = max (val_main_v42 (F := Ideal) x0 x1 x2 x3 x4 x5 (ix2 e k1) + x6 (ix1 k1)) (Ideal.ofBits .f32 0x00000000#32) := by
  rw [val_main_v46_apply, val_main_v45_apply, val_main_v44_apply, val_main_v43_apply, val_main_call0_v0_apply,
    val_main_call0_cst_apply]
  have hi : idx_main_v43 (idx_main_v44 (ix2 e k1)) = ix1 k1 :=
    funext fun a => Fin.ext (by match a with | ⟨0, _⟩ => rfl)
  rw [hi]
  rfl

/-- After the second layer's product, bias and maximum with 0. -/
theorem v51_at (x0 : (⟨S100000x16, .f32⟩ : BufTy).Contents (Elt Ideal)) (x1 : (⟨S100000x64, .f32⟩ : BufTy).Contents (Elt Ideal)) (x2 : (⟨S1600000, .f32⟩ : BufTy).Contents (Elt Ideal)) (x3 x4 : (⟨S1600000, .i32⟩ : BufTy).Contents (Elt Ideal)) (x5 : (⟨S162x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (e : Fin 1600000) (k2 : Fin 128) :
    val_main_v51 (F := Ideal) x0 x1 x2 x3 x4 x5 x6 x7 x8 (ix2 e k2)
      = max ((∑ k1 : Fin 128, val_main_v46 (F := Ideal) x0 x1 x2 x3 x4 x5 x6 (ix2 e k1) * x7 (ix2 k1 k2)) + x8 (ix1 k2))
          (Ideal.ofBits .f32 0x00000000#32) := by
  rw [val_main_v51_apply, val_main_v50_apply, val_main_v47_apply, val_main_v49_apply, val_main_v48_apply,
    val_main_call1_v0_apply, val_main_call1_cst_apply]
  have hi : idx_main_v48 (idx_main_v49 (ix2 e k2)) = ix1 k2 :=
    funext fun a => Fin.ext (by match a with | ⟨0, _⟩ => rfl)
  have hl : ∀ k1 : Fin 128, lidx_main_v47 (ix2 e k2) k1 = ix2 e k1 := fun k1 =>
    funext fun a => Fin.ext (by match a with | ⟨0, _⟩ => rfl | ⟨1, _⟩ => rfl)
  have hr : ∀ k1 : Fin 128, ridx_main_v47 (ix2 e k2) k1 = ix2 k1 k2 := fun k1 =>
    funext fun a => Fin.ext (by match a with | ⟨0, _⟩ => rfl | ⟨1, _⟩ => rfl)
  simp only [hi, hl, hr]
  rfl

/-- The third result: the two layers after the first, applied to the first layer's row. -/
theorem v55_at (x0 : (⟨S100000x16, .f32⟩ : BufTy).Contents (Elt Ideal)) (x1 : (⟨S100000x64, .f32⟩ : BufTy).Contents (Elt Ideal)) (x2 : (⟨S1600000, .f32⟩ : BufTy).Contents (Elt Ideal)) (x3 x4 : (⟨S1600000, .i32⟩ : BufTy).Contents (Elt Ideal)) (x5 : (⟨S162x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (e : Fin 1600000) (q : Fin 64) :
    val_main_v55 (F := Ideal) x0 x1 x2 x3 x4 x5 x6 x7 x8 x9 x10 (ix2 e q)
      = tail (fun k1 => val_main_v42 (F := Ideal) x0 x1 x2 x3 x4 x5 (ix2 e k1)) (fun k1 => x6 (ix1 k1))
          (fun k1 k2 => x7 (ix2 k1 k2)) (fun k2 => x8 (ix1 k2)) (fun k2 => x9 (ix2 k2 q)) (x10 (ix1 q)) := by
  rw [val_main_v55_apply, val_main_v52_apply, val_main_v54_apply, val_main_v53_apply]
  have hi : idx_main_v53 (idx_main_v54 (ix2 e q)) = ix1 q :=
    funext fun a => Fin.ext (by match a with | ⟨0, _⟩ => rfl)
  have hl : ∀ k2 : Fin 128, lidx_main_v52 (ix2 e q) k2 = ix2 e k2 := fun k2 =>
    funext fun a => Fin.ext (by match a with | ⟨0, _⟩ => rfl | ⟨1, _⟩ => rfl)
  have hr : ∀ k2 : Fin 128, ridx_main_v52 (ix2 e q) k2 = ix2 k2 q := fun k2 =>
    funext fun a => Fin.ext (by match a with | ⟨0, _⟩ => rfl | ⟨1, _⟩ => rfl)
  unfold tail
  simp only [hi, hl, hr, v51_at, v46_at]
  rfl

end Cert.EdgeMlp.RefRows

end
-- ==== Proof.Bridge.lean ====
/-
  The kernel's result arrays are the reference's, entry by entry.

  Both programs read the same table rows for an edge (the same normalised, clamped index). The staged dst and src rows are the
  rows [features | h] the reference lays side by side, the staged weight blocks are rows 0–79, 80–159, 160 and 161 of the first
  weight matrix, and the staged bias rows are the biases. So:
  * the masked, scaled attention weight is the reference's (the law of the masked sum and of the division by √64);
  * the source rows' h part is the reference's gathered h;
  * the four partial products of the first layer are the reference's one sum over 162 inputs, and the two later layers are
    the same expressions of it.
-/
import proofs.«177085_j24137716203976_2_alg».proof.Proof.Staged
import proofs.«177085_j24137716203976_2_alg».proof.Proof.RefRows
import proofs.«177085_j24137716203976_2_alg».proof.Proof.KernelArrays

set_option pp.maxSteps 8000
set_option pp.deepTerms false

noncomputable section

namespace Cert.EdgeMlp.Bridge

open Idealize.ShloMosaic Idealize.ShloMosaic.TcCoe Idealize.SL.Sem Cert.KernelIdeal Cert.KernelIdeal.Gen
open Idealize.ShloMosaic.ValueIdx Cert.EdgeMlp.Rows Cert.EdgeMlp.KernelArrays

variable (m : (ℓ : Loc nD τ sig) → Buf (Elt Ideal) ℓ) (c : Dev nD)

/-- Both programs name the same table row for an edge. -/
theorem rowAt_eq (x : IVec S1600000 32) (e : Fin 1600000) :
    Cert.EdgeMlp.Staged.rowAt x e = Cert.EdgeMlp.RefRows.rowAt x e := rfl

/-- The attention weight of edge e: the kernel's masked, scaled form is the reference's. -/
theorem attn_at (e : Fin 1600000) (u : Fin 1) :
    attnMasked (fun k => (V m c main_v7 : S1600000x80.Idx → EReal) (ix2 e k))
        (fun k => (V m c main_v14 : S1600000x80.Idx → EReal) (ix2 e k))
        (fun k => (V m c main_cst : S1x80.Idx → EReal) (ix2 (0 : Fin 1) k))
      = Cert.ReferenceIdeal.Read.val_main_v39 (F := Ideal) (m (c, Proc.tc.devRef main_arg1)) (m (c, Proc.tc.devRef main_arg3)) (m (c, Proc.tc.devRef main_arg4)) (ix2 e u) := by
  rw [Cert.EdgeMlp.RefRows.v39_at]
  rw [attnMasked_eq _ _ _ (fun k h => Cert.EdgeMlp.Staged.mask_feat m c k h) (fun k h => Cert.EdgeMlp.Staged.mask_h m c k h)]
  have hd : ∀ k : Fin 80, (V m c main_v7 : S1600000x80.Idx → EReal) (ix2 e k)
      = catRow (m (c, Proc.tc.devRef main_arg0)) (m (c, Proc.tc.devRef main_arg1)) (Cert.EdgeMlp.Staged.rowAt (m (c, Proc.tc.devRef main_arg4)) e) k := fun k => Cert.EdgeMlp.Staged.dst_apply m c e k
  have hs : ∀ k : Fin 80, (V m c main_v14 : S1600000x80.Idx → EReal) (ix2 e k)
      = catRow (m (c, Proc.tc.devRef main_arg0)) (m (c, Proc.tc.devRef main_arg1)) (Cert.EdgeMlp.Staged.rowAt (m (c, Proc.tc.devRef main_arg3)) e) k := fun k => Cert.EdgeMlp.Staged.src_apply m c e k
  have hh4 : ∀ j : Fin 64, catRow (m (c, Proc.tc.devRef main_arg0)) (m (c, Proc.tc.devRef main_arg1)) (Cert.EdgeMlp.Staged.rowAt (m (c, Proc.tc.devRef main_arg4)) e) ⟨16 + j.val, by omega⟩
      = (m (c, Proc.tc.devRef main_arg1)) (ix2 (Cert.EdgeMlp.RefRows.rowAt (m (c, Proc.tc.devRef main_arg4)) e) j) := fun j => catRow_h _ _ _ j
  have hh3 : ∀ j : Fin 64, catRow (m (c, Proc.tc.devRef main_arg0)) (m (c, Proc.tc.devRef main_arg1)) (Cert.EdgeMlp.Staged.rowAt (m (c, Proc.tc.devRef main_arg3)) e) ⟨16 + j.val, by omega⟩
      = (m (c, Proc.tc.devRef main_arg1)) (ix2 (Cert.EdgeMlp.RefRows.rowAt (m (c, Proc.tc.devRef main_arg3)) e) j) := fun j => catRow_h _ _ _ j
  simp only [hd, hs, hh4, hh3]

/-- The attention array. -/
theorem attn_eq :
    attnArr (V m c main_v7) (V m c main_v14) (V m c main_cst)
      = Cert.ReferenceIdeal.Read.val_main_v39 (F := Ideal) (m (c, Proc.tc.devRef main_arg1)) (m (c, Proc.tc.devRef main_arg3)) (m (c, Proc.tc.devRef main_arg4)) := by
  funext i
  obtain ⟨e, u, rfl⟩ : ∃ (e : Fin 1600000) (u : Fin 1), i = ix2 e u := ⟨i 0, i 1, eq_ix2 i⟩
  exact attn_at m c e u

/-- The source rows' h part. -/
theorem srch_eq :
    (V m c main_v15 : S1600000x64.Idx → EReal) = Cert.ReferenceIdeal.Read.val_main_v27 (F := Ideal) (m (c, Proc.tc.devRef main_arg1)) (m (c, Proc.tc.devRef main_arg3)) := by
  funext i
  obtain ⟨e, j, rfl⟩ : ∃ (e : Fin 1600000) (j : Fin 64), i = ix2 e j := ⟨i 0, i 1, eq_ix2 i⟩
  rw [Cert.EdgeMlp.Staged.srch_apply, Cert.EdgeMlp.RefRows.v27_at, rowAt_eq]

/-- The first layer before its bias: the four partial products are the one sum over the 162 inputs. -/
theorem layer1_at (e : Fin 1600000) (j : Fin 128) :
    layer1Arr (V m c main_v7) (V m c main_v14) (V m c main_v16) (V m c main_cst) (V m c main_v18) (V m c main_v20)
        (V m c main_v21) (V m c main_v22) e j
      = Cert.ReferenceIdeal.Read.val_main_v42 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (ix2 e j) := by
  rw [Cert.EdgeMlp.RefRows.v42_at]
  have hh : ∀ k : Fin 162, Cert.ReferenceIdeal.Read.val_main_v41 (F := Ideal) (m (c, Proc.tc.devRef main_arg0)) (m (c, Proc.tc.devRef main_arg1)) (m (c, Proc.tc.devRef main_arg2)) (m (c, Proc.tc.devRef main_arg3)) (m (c, Proc.tc.devRef main_arg4)) (ix2 e k)
      = edgeInput (catRow (m (c, Proc.tc.devRef main_arg0)) (m (c, Proc.tc.devRef main_arg1)) (Cert.EdgeMlp.RefRows.rowAt (m (c, Proc.tc.devRef main_arg4)) e))
          (catRow (m (c, Proc.tc.devRef main_arg0)) (m (c, Proc.tc.devRef main_arg1)) (Cert.EdgeMlp.RefRows.rowAt (m (c, Proc.tc.devRef main_arg3)) e)) ((m (c, Proc.tc.devRef main_arg2)) (ix1 e))
          (Cert.ReferenceIdeal.Read.val_main_v39 (F := Ideal) (m (c, Proc.tc.devRef main_arg1)) (m (c, Proc.tc.devRef main_arg3)) (m (c, Proc.tc.devRef main_arg4)) (ix2 e (0 : Fin 1))) k :=
    fun k => Cert.EdgeMlp.RefRows.v41_at _ _ _ _ _ e k
  simp only [hh]
  refine Eq.trans ?_ (layer1_eq _ _ _ _ (fun k => (m (c, Proc.tc.devRef main_arg5)) (ix2 k j))).symm
  unfold layer1Arr
  rw [attn_at m c e 0]
  have hd : ∀ k : Fin 80, (V m c main_v7 : S1600000x80.Idx → EReal) (ix2 e k)
      = catRow (m (c, Proc.tc.devRef main_arg0)) (m (c, Proc.tc.devRef main_arg1)) (Cert.EdgeMlp.RefRows.rowAt (m (c, Proc.tc.devRef main_arg4)) e) k := fun k => Cert.EdgeMlp.Staged.dst_apply m c e k
  have hs : ∀ k : Fin 80, (V m c main_v14 : S1600000x80.Idx → EReal) (ix2 e k)
      = catRow (m (c, Proc.tc.devRef main_arg0)) (m (c, Proc.tc.devRef main_arg1)) (Cert.EdgeMlp.RefRows.rowAt (m (c, Proc.tc.devRef main_arg3)) e) k := fun k => Cert.EdgeMlp.Staged.src_apply m c e k
  have hx : (V m c main_v16 : S1600000x1.Idx → EReal) (ix2 e (0 : Fin 1)) = (m (c, Proc.tc.devRef main_arg2)) (ix1 e) :=
    Cert.EdgeMlp.Staged.dist_apply m c e 0
  have hwd : ∀ k : Fin 80, (V m c main_v18 : S80x128.Idx → EReal) (ix2 k j)
      = (m (c, Proc.tc.devRef main_arg5)) (ix2 (⟨k.val, by omega⟩ : Fin 162) j) := fun k => Cert.EdgeMlp.Staged.wd_apply m c k j
  have hws : ∀ k : Fin 80, (V m c main_v20 : S80x128.Idx → EReal) (ix2 k j)
      = (m (c, Proc.tc.devRef main_arg5)) (ix2 (⟨80 + k.val, by omega⟩ : Fin 162) j) := fun k => Cert.EdgeMlp.Staged.ws_apply m c k j
  have hwx : (V m c main_v21 : S1x128.Idx → EReal) (ix2 (0 : Fin 1) j) = (m (c, Proc.tc.devRef main_arg5)) (ix2 (⟨160, by omega⟩ : Fin 162) j) :=
    Cert.EdgeMlp.Staged.wx_apply m c 0 j
  have hwa : (V m c main_v22 : S1x128.Idx → EReal) (ix2 (0 : Fin 1) j) = (m (c, Proc.tc.devRef main_arg5)) (ix2 (⟨161, by omega⟩ : Fin 162) j) :=
    Cert.EdgeMlp.Staged.wa_apply m c 0 j
  simp only [hd, hs, hx, hwd, hws, hwx, hwa]

/-- The output array. -/
theorem out_eq :
    outArr (V m c main_v7) (V m c main_v14) (V m c main_v16) (V m c main_cst) (V m c main_v18) (V m c main_v20)
      (V m c main_v21) (V m c main_v22) (V m c main_v25) (V m c main_v23) (V m c main_v26) (V m c main_v24) (V m c main_v27)
      = Cert.ReferenceIdeal.Read.val_main_v55 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8))
          (m (c, Proc.tc.devRef main_arg9)) (m (c, Proc.tc.devRef main_arg10)) := by
  funext i
  obtain ⟨e, q, rfl⟩ : ∃ (e : Fin 1600000) (q : Fin 64), i = ix2 e q := ⟨i 0, i 1, eq_ix2 i⟩
  rw [Cert.EdgeMlp.RefRows.v55_at]
  show tail (fun k1 => layer1Arr (V m c main_v7) (V m c main_v14) (V m c main_v16) (V m c main_cst) (V m c main_v18)
        (V m c main_v20) (V m c main_v21) (V m c main_v22) e k1)
      (fun k1 => (V m c main_v25 : S1x128.Idx → EReal) (ix2 (0 : Fin 1) k1))
      (fun k1 k2 => (V m c main_v23 : S128x128.Idx → EReal) (ix2 k1 k2))
      (fun k2 => (V m c main_v26 : S1x128.Idx → EReal) (ix2 (0 : Fin 1) k2))
      (fun k2 => (V m c main_v24 : S128x64.Idx → EReal) (ix2 k2 q))
      ((V m c main_v27 : S1x64.Idx → EReal) (ix2 (0 : Fin 1) q)) = _
  have hl : ∀ k1 : Fin 128, layer1Arr (V m c main_v7) (V m c main_v14) (V m c main_v16) (V m c main_cst) (V m c main_v18)
        (V m c main_v20) (V m c main_v21) (V m c main_v22) e k1
      = Cert.ReferenceIdeal.Read.val_main_v42 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (ix2 e k1) :=
    fun k1 => layer1_at m c e k1
  have hb1 : ∀ k1 : Fin 128, (V m c main_v25 : S1x128.Idx → EReal) (ix2 (0 : Fin 1) k1) = (m (c, Proc.tc.devRef main_arg6)) (ix1 k1) :=
    fun k1 => Cert.EdgeMlp.Staged.b1_apply m c 0 k1
  have hb2 : ∀ k2 : Fin 128, (V m c main_v26 : S1x128.Idx → EReal) (ix2 (0 : Fin 1) k2) = (m (c, Proc.tc.devRef main_arg8)) (ix1 k2) :=
    fun k2 => Cert.EdgeMlp.Staged.b2_apply m c 0 k2
  have hb3 : (V m c main_v27 : S1x64.Idx → EReal) (ix2 (0 : Fin 1) q) = (m (c, Proc.tc.devRef main_arg10)) (ix1 q) :=
    Cert.EdgeMlp.Staged.b3_apply m c 0 q
  have hw2 : ∀ k1 k2 : Fin 128, (V m c main_v23 : S128x128.Idx → EReal) (ix2 k1 k2) = (m (c, Proc.tc.devRef main_arg7)) (ix2 k1 k2) :=
    fun k1 k2 => congrFun (Cert.EdgeMlp.Staged.v23_eq m c) _
  have hw3 : ∀ k2 : Fin 128, (V m c main_v24 : S128x64.Idx → EReal) (ix2 k2 q) = (m (c, Proc.tc.devRef main_arg9)) (ix2 k2 q) :=
    fun k2 => congrFun (Cert.EdgeMlp.Staged.v24_eq m c) _
  simp only [hl, hb1, hb2, hb3, hw2, hw3]

end Cert.EdgeMlp.Bridge

end
-- ==== Proof.lean ====
/-
  The certificate's five claims for the edge network: attention weight, source h rows and three-layer edge output.

  The kernel program gathers rows of the table [features | h] on the host and runs the attention product and the three
  layers in a launch over 400 blocks of 4000 edges; the reference does everything on the host. On the extended reals the two
  end with equal results:
  * result 0, the attention weight — the kernel sums the 80 products dst · src weighted by a 0/1 mask and multiplies by 0.125,
    the reference sums the 64 products of the h parts and divides by √64; the masked terms vanish, √64 = 8, and dividing by 8
    is multiplying by 0.125, so both are the logistic function of the same number;
  * result 1, the h part of the gathered source rows — columns 16–79 of a gathered row of the table are the gathered row of h;
  * result 2, the output — the kernel's four partial products (dst rows, src rows, distance, attention) are the reference's one
    sum over the 162 inputs cut at 80, 160 and 161, and the two later layers are the same expressions; every matrix product
    is the exact sum of products, a change of float format is the identity, and only commutativity and associativity of
    addition are used, so no input has to be finite.
  The three frames are the generated frame runs (the reference's is its generated run with the results dropped); the
  idealization rewrote nothing, so its claim is trivial.
-/
import proofs.«177085_j24137716203976_2_alg».proof.Defs
import proofs.«177085_j24137716203976_2_alg».proof.Proof.Gen.Kernel
import proofs.«177085_j24137716203976_2_alg».proof.Proof.Gen.Kernel.Skeleton
import proofs.«177085_j24137716203976_2_alg».proof.Proof.Gen.Kernel.Launch
import proofs.«177085_j24137716203976_2_alg».proof.Proof.Gen.Kernel.Points
import proofs.«177085_j24137716203976_2_alg».proof.Proof.Gen.Kernel.Frame
import proofs.«177085_j24137716203976_2_alg».proof.Proof.Gen.KernelIdeal
import proofs.«177085_j24137716203976_2_alg».proof.Proof.Gen.KernelIdeal.Skeleton
import proofs.«177085_j24137716203976_2_alg».proof.Proof.Gen.KernelIdeal.Launch
import proofs.«177085_j24137716203976_2_alg».proof.Proof.Gen.KernelIdeal.Points
import proofs.«177085_j24137716203976_2_alg».proof.Proof.Gen.KernelIdeal.Frame
import proofs.«177085_j24137716203976_2_alg».proof.Proof.Gen.ReferenceIdeal
import proofs.«177085_j24137716203976_2_alg».proof.Proof.Gen.Pre_finite_inputs
import proofs.«177085_j24137716203976_2_alg».proof.Proof.Gen.KernelIdeal.Value
import proofs.«177085_j24137716203976_2_alg».proof.Proof.Gen.ReferenceIdeal.Run
import proofs.«177085_j24137716203976_2_alg».proof.Proof.Gen.ReferenceIdeal.Read
import proofs.«177085_j24137716203976_2_alg».proof.Proof.KernelBlocks
import proofs.«177085_j24137716203976_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs, run from memories that agree on the arguments, end with the reference's three functions of the arguments:
    the kernel's two launched arrays by the blocks-to-array reading and the bridge, its host-written array by the bridge; the
    reference's by its generated run. -/
theorem algebraic : Cert.algebraic_KernelIdeal_ReferenceIdeal := by
  intro m ρ m' ρ' _ hagree
  refine ⟨fun c => Cert.ReferenceIdeal.Read.val_main_v39 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.ReferenceIdeal.Read.val_main_v27 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
    fun c => Cert.ReferenceIdeal.Read.val_main_v55 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.Gen.run_main m ρ)
    exact ⟨(Cert.KernelIdeal.Value.post13 m r h c).trans
        ((Cert.EdgeMlp.KernelBlocks.final_attn m c).trans (Cert.EdgeMlp.Bridge.attn_eq m c)),
      (Cert.EdgeMlp.KernelBlocks.kept_srch m r h c).trans (Cert.EdgeMlp.Bridge.srch_eq m c),
      (Cert.KernelIdeal.Value.post14 m r h c).trans
        ((Cert.EdgeMlp.KernelBlocks.final_out m c).trans (Cert.EdgeMlp.Bridge.out_eq m c)),
      Cert.KernelIdeal.Value.kept_main_arg0 m r h c, Cert.KernelIdeal.Value.kept_main_arg1 m r h c,
      Cert.KernelIdeal.Value.kept_main_arg2 m r h c, Cert.KernelIdeal.Value.kept_main_arg3 m r h c,
      Cert.KernelIdeal.Value.kept_main_arg4 m r h c, Cert.KernelIdeal.Value.kept_main_arg5 m r h c,
      Cert.KernelIdeal.Value.kept_main_arg6 m r h c, Cert.KernelIdeal.Value.kept_main_arg7 m r h c,
      Cert.KernelIdeal.Value.kept_main_arg8 m r h c, Cert.KernelIdeal.Value.kept_main_arg9 m r h c,
      Cert.KernelIdeal.Value.kept_main_arg10 m r h c⟩
  · refine (θ_run Cert.ReferenceIdeal.defs _ _).mono (fun r h c => ?_)
      (Cert.ReferenceIdeal.Value.run (F := Ideal) m' ρ')
    obtain ⟨g0, g1, g2, g3, g4, g5, g6, g7, g8, g9, g10⟩ := hagree c
    refine ⟨(h c).1.trans ?_, (h c).2.1.trans ?_, (h c).2.2.1.trans ?_, (h c).2.2.2⟩
    · rw [Cert.ReferenceIdeal.Read.val_main_v39_eq, g1, g3, g4]
    · rw [Cert.ReferenceIdeal.Read.val_main_v27_eq, g1, g3]
    · rw [Cert.ReferenceIdeal.Read.val_main_v55_eq, g0, g1, g2, g3, g4, g5, g6, g7, g8, g9, g10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
